-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2000 : Shape := ⟨2, ![16384, 2000]⟩
abbrev S100x2000 : Shape := ⟨2, ![100, 2000]⟩
abbrev S100 : Shape := ⟨1, ![100]⟩
abbrev S2x100 : Shape := ⟨2, ![2, 100]⟩
abbrev S2 : Shape := ⟨1, ![2]⟩
abbrev S_ : Shape := ⟨0, ![]⟩

class Facts : Prop where
  bcast_S_S16384x2000 : S_.BroadcastsInDim S16384x2000 (![] : Fin 0 → Fin S16384x2000.rank)
  reducesTo_S16384x2000_S_d0_1 : S16384x2000.ReducesTo [0, 1] S_
  h_S_ : 0 < S_.numel
  bcast_S_S100x2000 : S_.BroadcastsInDim S100x2000 (![] : Fin 0 → Fin S100x2000.rank)
  reducesTo_S100x2000_S_d0_1 : S100x2000.ReducesTo [0, 1] S_
  bcast_S_S100 : S_.BroadcastsInDim S100 (![] : Fin 0 → Fin S100.rank)
  reducesTo_S100_S_d0 : S100.ReducesTo [0] S_
  bcast_S_S2x100 : S_.BroadcastsInDim S2x100 (![] : Fin 0 → Fin S2x100.rank)
  reducesTo_S2x100_S_d0_1 : S2x100.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_arg5 : FVec F S100 .f32) (main_arg6 : FVec F S100 .f32) (main_v13 : IVec S_ 1) (main_v16 : IVec S2x100 1) : IVec S_ 1 :=
  let main_c_5 : IVec S_ 1 := constantI S_ 1 1#1
  let main_v17 : IVec S_ 1 := (fun x v => Host.reduce IntOp.andi x v reducesTo_S2x100_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S16384x2000 .f32) (main_arg1 : FVec F S100x2000 .f32) (main_arg2 : FVec F S100 .f32) (main_arg3 : FVec F S2x100 .f32) (main_arg4 : FVec F S2 .f32) (main_arg5 : FVec F S100 .f32) (main_arg6 : FVec F S100 .f32) : IVec S_ 1 :=
  let main_v0 : FVec F S16384x2000 .f32 := Host.absf main_arg0
  let main_cst : FVec F S_ .f32 := constant S_ .f32 0x7F800000#32
  let main_v1 : FVec F S16384x2000 .f32 := broadcastInDim S16384x2000 ![] bcast_S_S16384x2000 main_cst
  let main_v2 : IVec S16384x2000 1 := cmpf .olt main_v0 main_v1
  let main_c : IVec S_ 1 := constantI S_ 1 1#1
  let main_v3 : IVec S_ 1 := (fun x v => Host.reduce IntOp.andi x v reducesTo_S16384x2000_S_d0_1 h_S_) main_v2 main_c
  let main_v4 : FVec F S100x2000 .f32 := Host.absf main_arg1
  let main_cst_0 : FVec F S_ .f32 := constant S_ .f32 0x7F800000#32
  let main_v5 : FVec F S100x2000 .f32 := broadcastInDim S100x2000 ![] bcast_S_S100x2000 main_cst_0
  let main_v6 : IVec S100x2000 1 := cmpf .olt main_v4 main_v5
  let main_c_1 : IVec S_ 1 := constantI S_ 1 1#1
  let main_v7 : IVec S_ 1 := (fun x v => Host.reduce IntOp.andi x v reducesTo_S100x2000_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S2x100 .f32 := Host.absf main_arg3
  let main_cst_4 : FVec F S_ .f32 := constant S_ .f32 0x7F800000#32
  let main_v15 : FVec F S2x100 .f32 := broadcastInDim S2x100 ![] bcast_S_S2x100 main_cst_4
  let main_v16 : IVec S2x100 1 := cmpf .olt main_v14 main_v15
  fn_part1 (F := F) main_arg4 main_arg5 main_arg6 main_v13 main_v16
-- ==== Kernel.lean ====
abbrev S16384x2000 : Shape := ⟨2, ![16384, 2000]⟩
abbrev S100x2000 : Shape := ⟨2, ![100, 2000]⟩
abbrev S100 : Shape := ⟨1, ![100]⟩
abbrev S2x100 : Shape := ⟨2, ![2, 100]⟩
abbrev S2 : Shape := ⟨1, ![2]⟩
abbrev S16x1x128 : Shape := ⟨3, ![16, 1, 128]⟩
abbrev S1024x2000 : Shape := ⟨2, ![1024, 2000]⟩
abbrev S1x1x128 : Shape := ⟨3, ![1, 1, 128]⟩
abbrev S1x1024x2000 : Shape := ⟨3, ![1, 1024, 2000]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S128x2000 : Shape := ⟨2, ![128, 2000]⟩
abbrev S2000x128 : Shape := ⟨2, ![2000, 128]⟩
abbrev S128 : Shape := ⟨1, ![128]⟩
abbrev S16384x128 : Shape := ⟨2, ![16384, 128]⟩
abbrev S1024x128 : Shape := ⟨2, ![1024, 128]⟩
abbrev S1x128 : Shape := ⟨2, ![1, 128]⟩
abbrev S1x1024x128 : Shape := ⟨3, ![1, 1024, 128]⟩
abbrev S16384x100 : Shape := ⟨2, ![16384, 100]⟩
abbrev S1x100 : Shape := ⟨2, ![1, 100]⟩
abbrev S100x2 : Shape := ⟨2, ![100, 2]⟩
abbrev S16384x2 : Shape := ⟨2, ![16384, 2]⟩
abbrev S1x2 : Shape := ⟨2, ![1, 2]⟩

abbrev nBuf : Space → Nat
  | .hbm => 156
  | .vmem => 14
  | .smem => 0
  | _ => 0

abbrev hbmTy0_0 (i : Nat) : BufTy := match i % 128 with
  | 0 => ⟨S16384x2000, .f32⟩
  | 1 => ⟨S100x2000, .f32⟩
  | 2 => ⟨S100, .f32⟩
  | 3 => ⟨S2x100, .f32⟩
  | 4 => ⟨S2, .f32⟩
  | 5 => ⟨S100, .f32⟩
  | 6 => ⟨S100, .f32⟩
  | 7 => ⟨S16x1x128, .f32⟩
  | 8 => ⟨S_, .f32⟩
  | 9 => ⟨S_, .f32⟩
  | 10 => ⟨S_, .f32⟩
  | 11 => ⟨S_, .f32⟩
  | 12 => ⟨S100x2000, .f32⟩
  | 13 => ⟨S_, .f32⟩
  | 14 => ⟨S_, .f32⟩
  | 15 => ⟨S100x2000, .f32⟩
  | 16 => ⟨S100x2000, .f32⟩
  | 17 => ⟨S100x2000, .f32⟩
  | 18 => ⟨S_, .f32⟩
  | 19 => ⟨S_, .f32⟩
  | 20 => ⟨S_, .f32⟩
  | 21 => ⟨S100x2000, .f32⟩
  | 22 => ⟨S100x2000, .f32⟩
  | 23 => ⟨S_, .f32⟩
  | 24 => ⟨S100x2000, .f32⟩
  | 25 => ⟨S100x2000, .f32⟩
  | 26 => ⟨S_, .i32⟩
  | 27 => ⟨S_, .f32⟩
  | 28 => ⟨S128x2000, .f32⟩
  | 29 => ⟨S128x2000, .bf16⟩
  | 30 => ⟨S2000x128, .bf16⟩
  | 31 => ⟨S_, .f32⟩
  | 32 => ⟨S100, .f32⟩
  | 33 => ⟨S100, .f32⟩
  | 34 => ⟨S100, .f32⟩
  | 35 => ⟨S_, .f32⟩
  | 36 => ⟨S_, .f32⟩
  | 37 => ⟨S_, .f32⟩
  | 38 => ⟨S100, .f32⟩
  | 39 => ⟨S100, .f32⟩
  | 40 => ⟨S_, .f32⟩
  | 41 => ⟨S100, .f32⟩
  | 42 => ⟨S100, .f32⟩
  | 43 => ⟨S100, .f32⟩
  | 44 => ⟨S100, .f32⟩
  | 45 => ⟨S_, .i32⟩
  | 46 => ⟨S_, .f32⟩
  | 47 => ⟨S128, .f32⟩
  | 48 => ⟨S1x1, .f32⟩
  | 49 => ⟨S1x1, .f32⟩
  | 50 => ⟨S16384x128, .f32⟩
  | 51 => ⟨S16x1x128, .f32⟩
  | 52 => ⟨S_, .f32⟩
  | 53 => ⟨S_, .f32⟩
  | 54 => ⟨S16384x100, .f32⟩
  | 55 => ⟨S_, .f32⟩
  | 56 => ⟨S_, .f32⟩
  | 57 => ⟨S16384x100, .f32⟩
  | 58 => ⟨S16384x100, .f32⟩
  | 59 => ⟨S16384x100, .f32⟩
  | 60 => ⟨S_, .f32⟩
  | 61 => ⟨S_, .f32⟩
  | 62 => ⟨S_, .f32⟩
  | 63 => ⟨S16384x100, .f32⟩
  | 64 => ⟨S16384x100, .f32⟩
  | 65 => ⟨S_, .f32⟩
  | 66 => ⟨S16384x100, .f32⟩
  | 67 => ⟨S16384x100, .f32⟩
  | 68 => ⟨S16384x100, .f32⟩
  | 69 => ⟨S16384x100, .f32⟩
  | 70 => ⟨S_, .f32⟩
  | 71 => ⟨S100, .f32⟩
  | 72 => ⟨S_, .f32⟩
  | 73 => ⟨S100, .f32⟩
  | 74 => ⟨S100, .f32⟩
  | 75 => ⟨S1x100, .f32⟩
  | 76 => ⟨S16384x100, .f32⟩
  | 77 => ⟨S16384x100, .f32⟩
  | 78 => ⟨S16384x100, .f32⟩
  | 79 => ⟨S_, .f32⟩
  | 80 => ⟨S100, .f32⟩
  | 81 => ⟨S_, .f32⟩
  | 82 => ⟨S100, .f32⟩
  | 83 => ⟨S100, .f32⟩
  | 84 => ⟨S1x100, .f32⟩
  | 85 => ⟨S16384x100, .f32⟩
  | 86 => ⟨S16384x100, .f32⟩
  | 87 => ⟨S_, .f32⟩
  | 88 => ⟨S100, .f32⟩
  | 89 => ⟨S100, .f32⟩
  | 90 => ⟨S100, .f32⟩
  | 91 => ⟨S1x100, .f32⟩
  | 92 => ⟨S16384x100, .f32⟩
  | 93 => ⟨S16384x100, .f32⟩
  | 94 => ⟨S1x100, .f32⟩
  | 95 => ⟨S16384x100, .f32⟩
  | 96 => ⟨S16384x100, .f32⟩
  | 97 => ⟨S1x100, .f32⟩
  | 98 => ⟨S16384x100, .f32⟩
  | 99 => ⟨S16384x100, .f32⟩
  | 100 => ⟨S2x100, .f32⟩
  | 101 => ⟨S_, .f32⟩
  | 102 => ⟨S_, .f32⟩
  | 103 => ⟨S2x100, .f32⟩
  | 104 => ⟨S2x100, .f32⟩
  | 105 => ⟨S2x100, .f32⟩
  | 106 => ⟨S_, .f32⟩
  | 107 => ⟨S_, .f32⟩
  | 108 => ⟨S_, .f32⟩
  | 109 => ⟨S2x100, .f32⟩
  | 110 => ⟨S2x100, .f32⟩
  | 111 => ⟨S_, .f32⟩
  | 112 => ⟨S2x100, .f32⟩
  | 113 => ⟨S2x100, .f32⟩
  | 114 => ⟨S_, .f32⟩
  | 115 => ⟨S2, .f32⟩
  | 116 => ⟨S2, .f32⟩
  | 117 => ⟨S2, .f32⟩
  | 118 => ⟨S_, .f32⟩
  | 119 => ⟨S_, .f32⟩
  | 120 => ⟨S_, .f32⟩
  | 121 => ⟨S2, .f32⟩
  | 122 => ⟨S2, .f32⟩
  | 123 => ⟨S_, .f32⟩
  | 124 => ⟨S2, .f32⟩
  | 125 => ⟨S2, .f32⟩
  | 126 => ⟨S16384x100, .f32⟩
  | 127 => ⟨S16384x100, .f32⟩
  | _ => ⟨S16384x2000, .f32⟩

abbrev hbmTy0_1 (i : Nat) : BufTy := match i % 128 with
  | 0 => ⟨S100x2, .f32⟩
  | 1 => ⟨S16384x2, .f32⟩
  | 2 => ⟨S1x2, .f32⟩
  | 3 => ⟨S16384x2, .f32⟩
  | 4 => ⟨S16384x2, .f32⟩
  | 5 => ⟨S16384x2, .f32⟩
  | 6 => ⟨S16384x2, .f32⟩
  | 7 => ⟨S_, .f32⟩
  | 8 => ⟨S16384x2, .f32⟩
  | 9 => ⟨S16384x2, .f32⟩
  | 10 => ⟨S16384x2, .f32⟩
  | 11 => ⟨S_, .f32⟩
  | 12 => ⟨S_, .f32⟩
  | 13 => ⟨S_, .f32⟩
  | 14 => ⟨S_, .f32⟩
  | 15 => ⟨S16384x2, .f32⟩
  | 16 => ⟨S16384x2, .f32⟩
  | 17 => ⟨S16384x2, .f32⟩
  | 18 => ⟨S_, .f32⟩
  | 19 => ⟨S_, .f32⟩
  | 20 => ⟨S_, .f32⟩
  | 21 => ⟨S16384x2, .f32⟩
  | 22 => ⟨S16384x2, .f32⟩
  | 23 => ⟨S_, .f32⟩
  | 24 => ⟨S16384x2, .f32⟩
  | 25 => ⟨S16384x2, .f32⟩
  | 26 => ⟨S16384x2, .f32⟩
  | 27 => ⟨S16384x2, .f32⟩
  | _ => ⟨S16384x2000, .f32⟩

abbrev hbmTy (i : Nat) : BufTy := match i / 128 with
  | 0 => hbmTy0_0 i
  | 1 => hbmTy0_1 i
  | _ => ⟨S16384x2000, .f32⟩

abbrev bufTy : (tb : Table) → Fin (tcTables nBuf tb) → BufTy
  | .hbm, ⟨i, _⟩ => hbmTy i
  | .local _ .vmem, ⟨0, _⟩ => ⟨S1024x2000, .f32⟩
  | .local _ .vmem, ⟨1, _⟩ => ⟨S1024x2000, .f32⟩
  | .local _ .vmem, ⟨2, _⟩ => ⟨S1x1x128, .f32⟩
  | .local _ .vmem, ⟨3, _⟩ => ⟨S1x1x128, .f32⟩
  | .local _ .vmem, ⟨4, _⟩ => ⟨S1x1, .f32⟩
  | .local _ .vmem, ⟨5, _⟩ => ⟨S1x1, .f32⟩
  | .local _ .vmem, ⟨6, _⟩ => ⟨S1024x2000, .f32⟩
  | .local _ .vmem, ⟨7, _⟩ => ⟨S1024x2000, .f32⟩
  | .local _ .vmem, ⟨8, _⟩ => ⟨S2000x128, .bf16⟩
  | .local _ .vmem, ⟨9, _⟩ => ⟨S128, .f32⟩
  | .local _ .vmem, ⟨10, _⟩ => ⟨S1024x128, .f32⟩
  | .local _ .vmem, ⟨11, _⟩ => ⟨S1024x128, .f32⟩
  | .local _ .vmem, ⟨12, _⟩ => ⟨S1x1x128, .f32⟩
  | .local _ .vmem, ⟨13, _⟩ => ⟨S1x1x128, .f32⟩
  | _, _ => ⟨S16384x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_c : Ref sig .tc := ⟨.hbm, 26, rfl⟩
abbrev main_call2_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_cst_5 : Ref sig .tc := ⟨.hbm, 36, rfl⟩
abbrev main_call4_v0 : Ref sig .tc := ⟨.hbm, 37, rfl⟩
abbrev main_call4_v1 : Ref sig .tc := ⟨.hbm, 38, rfl⟩
abbrev main_call4_v2 : Ref sig .tc := ⟨.hbm, 39, rfl⟩
abbrev main_call4_v3 : Ref sig .tc := ⟨.hbm, 40, rfl⟩
abbrev main_call4_v4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_call5_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22_0 : Ref sig .tc := ⟨.hbm, 50, rfl⟩
abbrev main_v22_1 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_cst_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_9 : Ref sig .tc := ⟨.hbm, 60, rfl⟩
abbrev main_cst_10 : Ref sig .tc := ⟨.hbm, 61, rfl⟩
abbrev main_call7_v0 : Ref sig .tc := ⟨.hbm, 62, rfl⟩
abbrev main_call7_v1 : Ref sig .tc := ⟨.hbm, 63, rfl⟩
abbrev main_call7_v2 : Ref sig .tc := ⟨.hbm, 64, rfl⟩
abbrev main_call7_v3 : Ref sig .tc := ⟨.hbm, 65, rfl⟩
abbrev main_call7_v4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_11 : Ref sig .tc := ⟨.hbm, 70, rfl⟩
abbrev main_v32 : Ref sig .tc := ⟨.hbm, 71, rfl⟩
abbrev main_cst_12 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_13 : Ref sig .tc := ⟨.hbm, 79, rfl⟩
abbrev main_v39 : Ref sig .tc := ⟨.hbm, 80, rfl⟩
abbrev main_cst_14 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_15 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_16 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_17 : Ref sig .tc := ⟨.hbm, 106, rfl⟩
abbrev main_cst_18 : Ref sig .tc := ⟨.hbm, 107, rfl⟩
abbrev main_call9_v0 : Ref sig .tc := ⟨.hbm, 108, rfl⟩
abbrev main_call9_v1 : Ref sig .tc := ⟨.hbm, 109, rfl⟩
abbrev main_call9_v2 : Ref sig .tc := ⟨.hbm, 110, rfl⟩
abbrev main_call9_v3 : Ref sig .tc := ⟨.hbm, 111, rfl⟩
abbrev main_call9_v4 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_19 : Ref sig .tc := ⟨.hbm, 118, rfl⟩
abbrev main_cst_20 : Ref sig .tc := ⟨.hbm, 119, rfl⟩
abbrev main_call11_v0 : Ref sig .tc := ⟨.hbm, 120, rfl⟩
abbrev main_call11_v1 : Ref sig .tc := ⟨.hbm, 121, rfl⟩
abbrev main_call11_v2 : Ref sig .tc := ⟨.hbm, 122, rfl⟩
abbrev main_call11_v3 : Ref sig .tc := ⟨.hbm, 123, rfl⟩
abbrev main_call11_v4 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_call12_cst : Ref sig .tc := ⟨.hbm, 135, rfl⟩
abbrev main_call12_v0 : Ref sig .tc := ⟨.hbm, 136, rfl⟩
abbrev main_v77 : Ref sig .tc := ⟨.hbm, 137, rfl⟩
abbrev main_v78 : Ref sig .tc := ⟨.hbm, 138, rfl⟩
abbrev main_cst_21 : Ref sig .tc := ⟨.hbm, 139, rfl⟩
abbrev main_v79 : Ref sig .tc := ⟨.hbm, 140, rfl⟩
abbrev main_cst_22 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_23 : Ref sig .tc := ⟨.hbm, 146, rfl⟩
abbrev main_cst_24 : Ref sig .tc := ⟨.hbm, 147, rfl⟩
abbrev main_call14_v0 : Ref sig .tc := ⟨.hbm, 148, rfl⟩
abbrev main_call14_v1 : Ref sig .tc := ⟨.hbm, 149, rfl⟩
abbrev main_call14_v2 : Ref sig .tc := ⟨.hbm, 150, rfl⟩
abbrev main_call14_v3 : Ref sig .tc := ⟨.hbm, 151, rfl⟩
abbrev main_call14_v4 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x2000_S1024x2000_0_0 : ∀ a, (![0, 0] : Fin 2 → Nat) a + S1024x2000.size a ≤ S1024x2000.size a
  h_S1024x2000 : 0 < S1024x2000.numel
  shapeCasts_S1024x2000_S1x1024x2000 : S1024x2000.ShapeCasts S1x1024x2000
  reduces_S1x1024x2000_S1 : S1x1024x2000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S16x1x128_S_d0_1_2 : S16x1x128.ReducesTo [0, 1, 2] S_
  h_S_ : 0 < S_.numel
  reducesTo_S100x2000_S_d0_1 : S100x2000.ReducesTo [0, 1] S_
  bcast_S_S100x2000 : S_.BroadcastsInDim S100x2000 (![] : Fin 0 → Fin S100x2000.rank)
  pads_S100x2000_S128x2000_0280_000 : S100x2000.Pads (![0, 0] : Fin 2 → Nat) ![28, 0] ![0, 0] S128x2000
  bitsLt_bf16_f32 : FTy.bits .bf16 < FTy.bits .f32
  transposes_S128x2000_S2000x128_1_0 : S128x2000.Transposes [1, 0] S2000x128
  bcast_S_S100 : S_.BroadcastsInDim S100 (![] : Fin 0 → Fin S100.rank)
  pads_S100_S128_0280 : S100.Pads (![0] : Fin 1 → Nat) ![28] ![0] S128
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1x1024x128 : S1024x128.ShapeCasts S1x1024x128
  reduces_S1x1024x128_S1 : S1x1024x128.Reduces [1, 2] S1
  slices_S16384x128_S16384x100_0_0 : S16384x128.Slices ![0, 0] S16384x100
  bcast_S_S16384x100 : S_.BroadcastsInDim S16384x100 (![] : Fin 0 → Fin S16384x100.rank)
  reducesTo_S16384x100_S100_d0 : S16384x100.ReducesTo [0] S100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  reducesTo_S2x100_S_d0_1 : S2x100.ReducesTo [0, 1] S_
  bcast_S_S2x100 : S_.BroadcastsInDim S2x100 (![] : Fin 0 → Fin S2x100.rank)
  bcast_S_S2 : S_.BroadcastsInDim S2 (![] : Fin 0 → Fin S2.rank)
  transposes_S2x100_S100x2_1_0 : S2x100.Transposes [1, 0] S100x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  reducesTo_S16384x2_S_d0_1 : S16384x2.ReducesTo [0, 1] S_
  dot_S1024x2000_S2000x128_S1024x128_1_0_0_1_n_n_wf : DotDims.WF S1024x2000 S2000x128 S1024x128 [1] [0] [0] [1] [] []
  dot_S16384x100_S100x2_S16384x2_1_0_0_1_n_n_wf : DotDims.WF S16384x100 S100x2 S16384x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2000.size a ≤ S16384x2000.size a
  hwx0_0 : ∀ i : grid0.Coords, EltTy.bits .f32 = 32 ∨ (Rect.block (s := S16384x2000) S1024x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .f32 = 32 ∨ (Rect.block (s := S16x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2000.size a ≤ S16384x2000.size a
  hwx1_2 : ∀ i : grid1.Coords, EltTy.bits .f32 = 32 ∨ (Rect.block (s := S16384x2000) S1024x2000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S2000x128.size a
  hwx1_3 : ∀ i : grid1.Coords, EltTy.bits .bf16 = 32 ∨ (Rect.block (s := S2000x128) S2000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S16384x128.size a
  hwx1_5 : ∀ i : grid1.Coords, EltTy.bits .f32 = 32 ∨ (Rect.block (s := S16384x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S16x1x128.size a
  hwx1_6 : ∀ i : grid1.Coords, EltTy.bits .f32 = 32 ∨ (Rect.block (s := S16x1x128) S1x1x128.size (cc1_transform_6 i) (hinb1_6 i)).WholeWords (EltTy.packing .f32)

variable [Facts₀]

def dot_S1024x2000_S2000x128_S1024x128_1_0_0_1_n_n : DotDims S1024x2000 S2000x128 S1024x128 where
  lhsContracting := [1]
  rhsContracting := [0]
  lhsNonContracting := [0]
  rhsNonContracting := [1]
  lhsBatch := []
  rhsBatch := []
  wf := dot_S1024x2000_S2000x128_S1024x128_1_0_0_1_n_n_wf
def dot_S16384x100_S100x2_S16384x2_1_0_0_1_n_n : DotDims S16384x100 S100x2 S16384x2 where
  lhsContracting := [1]
  rhsContracting := [0]
  lhsNonContracting := [0]
  rhsNonContracting := [1]
  lhsBatch := []
  rhsBatch := []
  wf := dot_S16384x100_S100x2_S16384x2_1_0_0_1_n_n_wf

abbrev win0_0 : Pipeline.Window sig grid0 :=
  Pipeline.Window.ofSpec (Memref.whole main_arg0) S1024x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v20) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x2000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22_0) S1024x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22_1) S1x1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x2000 : Shape := ⟨2, ![16384, 2000]⟩
abbrev S100x2000 : Shape := ⟨2, ![100, 2000]⟩
abbrev S100 : Shape := ⟨1, ![100]⟩
abbrev S2x100 : Shape := ⟨2, ![2, 100]⟩
abbrev S2 : Shape := ⟨1, ![2]⟩
abbrev S_ : Shape := ⟨0, ![]⟩
abbrev S2000x100 : Shape := ⟨2, ![2000, 100]⟩
abbrev S16384x100 : Shape := ⟨2, ![16384, 100]⟩
abbrev S1x100 : Shape := ⟨2, ![1, 100]⟩
abbrev S100x2 : Shape := ⟨2, ![100, 2]⟩
abbrev S16384x2 : Shape := ⟨2, ![16384, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S16384x2000, .f32⟩
  | 1 => ⟨S100x2000, .f32⟩
  | 2 => ⟨S100, .f32⟩
  | 3 => ⟨S2x100, .f32⟩
  | 4 => ⟨S2, .f32⟩
  | 5 => ⟨S100, .f32⟩
  | 6 => ⟨S100, .f32⟩
  | 7 => ⟨S16384x2000, .f32⟩
  | 8 => ⟨S_, .f32⟩
  | 9 => ⟨S_, .f32⟩
  | 10 => ⟨S_, .f32⟩
  | 11 => ⟨S_, .f32⟩
  | 12 => ⟨S16384x2000, .f32⟩
  | 13 => ⟨S16384x2000, .f32⟩
  | 14 => ⟨S16384x2000, .f32⟩
  | 15 => ⟨S_, .i32⟩
  | 16 => ⟨S_, .i32⟩
  | 17 => ⟨S_, .f32⟩
  | 18 => ⟨S16384x2000, .f32⟩
  | 19 => ⟨S16384x2000, .f32⟩
  | 20 => ⟨S_, .f32⟩
  | 21 => ⟨S16384x2000, .f32⟩
  | 22 => ⟨S16384x2000, .f32⟩
  | 23 => ⟨S16384x2000, .f32⟩
  | 24 => ⟨S16384x2000, .f32⟩
  | 25 => ⟨S100x2000, .f32⟩
  | 26 => ⟨S_, .f32⟩
  | 27 => ⟨S_, .f32⟩
  | 28 => ⟨S_, .f32⟩
  | 29 => ⟨S_, .f32⟩
  | 30 => ⟨S100x2000, .f32⟩
  | 31 => ⟨S100x2000, .f32⟩
  | 32 => ⟨S100x2000, .f32⟩
  | 33 => ⟨S_, .i32⟩
  | 34 => ⟨S_, .i32⟩
  | 35 => ⟨S_, .f32⟩
  | 36 => ⟨S100x2000, .f32⟩
  | 37 => ⟨S100x2000, .f32⟩
  | 38 => ⟨S_, .f32⟩
  | 39 => ⟨S100x2000, .f32⟩
  | 40 => ⟨S100x2000, .f32⟩
  | 41 => ⟨S_, .f32⟩
  | 42 => ⟨S100, .f32⟩
  | 43 => ⟨S100, .f32⟩
  | 44 => ⟨S100, .f32⟩
  | 45 => ⟨S_, .i32⟩
  | 46 => ⟨S_, .i32⟩
  | 47 => ⟨S_, .f32⟩
  | 48 => ⟨S100, .f32⟩
  | 49 => ⟨S100, .f32⟩
  | 50 => ⟨S_, .f32⟩
  | 51 => ⟨S100, .f32⟩
  | 52 => ⟨S100, .f32⟩
  | 53 => ⟨S16384x2000, .f32⟩
  | 54 => ⟨S16384x2000, .f32⟩
  | 55 => ⟨S2000x100, .f32⟩
  | 56 => ⟨S16384x100, .f32⟩
  | 57 => ⟨S1x100, .f32⟩
  | 58 => ⟨S16384x100, .f32⟩
  | 59 => ⟨S16384x100, .f32⟩
  | 60 => ⟨S16384x100, .f32⟩
  | 61 => ⟨S16384x100, .f32⟩
  | 62 => ⟨S_, .f32⟩
  | 63 => ⟨S16384x100, .f32⟩
  | 64 => ⟨S16384x100, .f32⟩
  | 65 => ⟨S16384x100, .f32⟩
  | 66 => ⟨S_, .f32⟩
  | 67 => ⟨S_, .f32⟩
  | 68 => ⟨S_, .f32⟩
  | 69 => ⟨S_, .f32⟩
  | 70 => ⟨S16384x100, .f32⟩
  | 71 => ⟨S16384x100, .f32⟩
  | 72 => ⟨S16384x100, .f32⟩
  | 73 => ⟨S_, .i32⟩
  | 74 => ⟨S_, .i32⟩
  | 75 => ⟨S_, .f32⟩
  | 76 => ⟨S16384x100, .f32⟩
  | 77 => ⟨S16384x100, .f32⟩
  | 78 => ⟨S_, .f32⟩
  | 79 => ⟨S16384x100, .f32⟩
  | 80 => ⟨S16384x100, .f32⟩
  | 81 => ⟨S16384x100, .f32⟩
  | 82 => ⟨S16384x100, .f32⟩
  | 83 => ⟨S_, .f32⟩
  | 84 => ⟨S100, .f32⟩
  | 85 => ⟨S_, .f32⟩
  | 86 => ⟨S100, .f32⟩
  | 87 => ⟨S100, .f32⟩
  | 88 => ⟨S1x100, .f32⟩
  | 89 => ⟨S16384x100, .f32⟩
  | 90 => ⟨S16384x100, .f32⟩
  | 91 => ⟨S16384x100, .f32⟩
  | 92 => ⟨S_, .f32⟩
  | 93 => ⟨S100, .f32⟩
  | 94 => ⟨S_, .f32⟩
  | 95 => ⟨S100, .f32⟩
  | 96 => ⟨S100, .f32⟩
  | 97 => ⟨S1x100, .f32⟩
  | 98 => ⟨S16384x100, .f32⟩
  | 99 => ⟨S16384x100, .f32⟩
  | 100 => ⟨S_, .f32⟩
  | 101 => ⟨S100, .f32⟩
  | 102 => ⟨S100, .f32⟩
  | 103 => ⟨S100, .f32⟩
  | 104 => ⟨S1x100, .f32⟩
  | 105 => ⟨S16384x100, .f32⟩
  | 106 => ⟨S16384x100, .f32⟩
  | 107 => ⟨S1x100, .f32⟩
  | 108 => ⟨S16384x100, .f32⟩
  | 109 => ⟨S16384x100, .f32⟩
  | 110 => ⟨S1x100, .f32⟩
  | 111 => ⟨S16384x100, .f32⟩
  | 112 => ⟨S16384x100, .f32⟩
  | 113 => ⟨S2x100, .f32⟩
  | 114 => ⟨S_, .f32⟩
  | 115 => ⟨S_, .f32⟩
  | 116 => ⟨S_, .f32⟩
  | 117 => ⟨S_, .f32⟩
  | 118 => ⟨S2x100, .f32⟩
  | 119 => ⟨S2x100, .f32⟩
  | 120 => ⟨S2x100, .f32⟩
  | 121 => ⟨S_, .i32⟩
  | 122 => ⟨S_, .i32⟩
  | 123 => ⟨S_, .f32⟩
  | 124 => ⟨S2x100, .f32⟩
  | 125 => ⟨S2x100, .f32⟩
  | 126 => ⟨S_, .f32⟩
  | 127 => ⟨S2x100, .f32⟩
  | _ => ⟨S16384x2000, .f32⟩

abbrev hbmTy0_1 (i : Nat) : BufTy := match i % 128 with
  | 0 => ⟨S2x100, .f32⟩
  | 1 => ⟨S_, .f32⟩
  | 2 => ⟨S2, .f32⟩
  | 3 => ⟨S2, .f32⟩
  | 4 => ⟨S2, .f32⟩
  | 5 => ⟨S_, .i32⟩
  | 6 => ⟨S_, .i32⟩
  | 7 => ⟨S_, .f32⟩
  | 8 => ⟨S2, .f32⟩
  | 9 => ⟨S2, .f32⟩
  | 10 => ⟨S_, .f32⟩
  | 11 => ⟨S2, .f32⟩
  | 12 => ⟨S2, .f32⟩
  | 13 => ⟨S16384x100, .f32⟩
  | 14 => ⟨S16384x100, .f32⟩
  | 15 => ⟨S100x2, .f32⟩
  | 16 => ⟨S16384x2, .f32⟩
  | 17 => ⟨S1x2, .f32⟩
  | 18 => ⟨S16384x2, .f32⟩
  | 19 => ⟨S16384x2, .f32⟩
  | 20 => ⟨S16384x2, .f32⟩
  | 21 => ⟨S16384x2, .f32⟩
  | 22 => ⟨S_, .f32⟩
  | 23 => ⟨S16384x2, .f32⟩
  | 24 => ⟨S16384x2, .f32⟩
  | 25 => ⟨S16384x2, .f32⟩
  | 26 => ⟨S_, .f32⟩
  | 27 => ⟨S_, .f32⟩
  | 28 => ⟨S_, .f32⟩
  | 29 => ⟨S_, .f32⟩
  | 30 => ⟨S16384x2, .f32⟩
  | 31 => ⟨S16384x2, .f32⟩
  | 32 => ⟨S16384x2, .f32⟩
  | 33 => ⟨S_, .i32⟩
  | 34 => ⟨S_, .i32⟩
  | 35 => ⟨S_, .f32⟩
  | 36 => ⟨S16384x2, .f32⟩
  | 37 => ⟨S16384x2, .f32⟩
  | 38 => ⟨S_, .f32⟩
  | 39 => ⟨S16384x2, .f32⟩
  | 40 => ⟨S16384x2, .f32⟩
  | 41 => ⟨S16384x2, .f32⟩
  | 42 => ⟨S16384x2, .f32⟩
  | _ => ⟨S16384x2000, .f32⟩

abbrev hbmTy (i : Nat) : BufTy := match i / 128 with
  | 0 => hbmTy0_0 i
  | 1 => hbmTy0_1 i
  | _ => ⟨S16384x2000, .f32⟩

abbrev bufTy : (tb : Table) → Fin (tcTables nBuf tb) → BufTy
  | .hbm, ⟨i, _⟩ => hbmTy i
  | _, _ => ⟨S16384x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_c_5 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_c_7 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call6_cst : Ref sig .tc := ⟨.hbm, 62, rfl⟩
abbrev main_call6_v0 : Ref sig .tc := ⟨.hbm, 63, rfl⟩
abbrev main_v30 : Ref sig .tc := ⟨.hbm, 64, rfl⟩
abbrev main_v31 : Ref sig .tc := ⟨.hbm, 65, rfl⟩
abbrev main_cst_8 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_10 : Ref sig .tc := ⟨.hbm, 73, rfl⟩
abbrev main_c_11 : Ref sig .tc := ⟨.hbm, 74, rfl⟩
abbrev main_call8_v0 : Ref sig .tc := ⟨.hbm, 75, rfl⟩
abbrev main_call8_v1 : Ref sig .tc := ⟨.hbm, 76, rfl⟩
abbrev main_call8_v2 : Ref sig .tc := ⟨.hbm, 77, rfl⟩
abbrev main_call8_v3 : Ref sig .tc := ⟨.hbm, 78, rfl⟩
abbrev main_call8_v4 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_12 : Ref sig .tc := ⟨.hbm, 83, rfl⟩
abbrev main_v40 : Ref sig .tc := ⟨.hbm, 84, rfl⟩
abbrev main_cst_13 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_14 : Ref sig .tc := ⟨.hbm, 92, rfl⟩
abbrev main_v47 : Ref sig .tc := ⟨.hbm, 93, rfl⟩
abbrev main_cst_15 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_16 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_17 : Ref sig .tc := ⟨.hbm, 114, rfl⟩
abbrev main_v66 : Ref sig .tc := ⟨.hbm, 115, rfl⟩
abbrev main_cst_18 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_c_19 : Ref sig .tc := ⟨.hbm, 121, rfl⟩
abbrev main_c_20 : Ref sig .tc := ⟨.hbm, 122, rfl⟩
abbrev main_call10_v0 : Ref sig .tc := ⟨.hbm, 123, rfl⟩
abbrev main_call10_v1 : Ref sig .tc := ⟨.hbm, 124, rfl⟩
abbrev main_call10_v2 : Ref sig .tc := ⟨.hbm, 125, rfl⟩
abbrev main_call10_v3 : Ref sig .tc := ⟨.hbm, 126, rfl⟩
abbrev main_call10_v4 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_21 : Ref sig .tc := ⟨.hbm, 133, rfl⟩
abbrev main_c_22 : Ref sig .tc := ⟨.hbm, 134, rfl⟩
abbrev main_call12_v0 : Ref sig .tc := ⟨.hbm, 135, rfl⟩
abbrev main_call12_v1 : Ref sig .tc := ⟨.hbm, 136, rfl⟩
abbrev main_call12_v2 : Ref sig .tc := ⟨.hbm, 137, rfl⟩
abbrev main_call12_v3 : Ref sig .tc := ⟨.hbm, 138, rfl⟩
abbrev main_call12_v4 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call13_cst : Ref sig .tc := ⟨.hbm, 150, rfl⟩
abbrev main_call13_v0 : Ref sig .tc := ⟨.hbm, 151, rfl⟩
abbrev main_v86 : Ref sig .tc := ⟨.hbm, 152, rfl⟩
abbrev main_v87 : Ref sig .tc := ⟨.hbm, 153, rfl⟩
abbrev main_cst_23 : Ref sig .tc := ⟨.hbm, 154, rfl⟩
abbrev main_v88 : Ref sig .tc := ⟨.hbm, 155, rfl⟩
abbrev main_cst_24 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_c_25 : Ref sig .tc := ⟨.hbm, 161, rfl⟩
abbrev main_c_26 : Ref sig .tc := ⟨.hbm, 162, rfl⟩
abbrev main_call15_v0 : Ref sig .tc := ⟨.hbm, 163, rfl⟩
abbrev main_call15_v1 : Ref sig .tc := ⟨.hbm, 164, rfl⟩
abbrev main_call15_v2 : Ref sig .tc := ⟨.hbm, 165, rfl⟩
abbrev main_call15_v3 : Ref sig .tc := ⟨.hbm, 166, rfl⟩
abbrev main_call15_v4 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩

abbrev nD : Nat := 1
abbrev τ : Topo := Topo.v7x

variable {F : FTy → Type} [FloatOps F]

class Facts₀ : Prop where
  reducesTo_S16384x2000_S_d0_1 : S16384x2000.ReducesTo [0, 1] S_
  h_S_ : 0 < S_.numel
  bcast_S_S16384x2000 : S_.BroadcastsInDim S16384x2000 (![] : Fin 0 → Fin S16384x2000.rank)
  reducesTo_S100x2000_S_d0_1 : S100x2000.ReducesTo [0, 1] S_
  bcast_S_S100x2000 : S_.BroadcastsInDim S100x2000 (![] : Fin 0 → Fin S100x2000.rank)
  bcast_S_S100 : S_.BroadcastsInDim S100 (![] : Fin 0 → Fin S100.rank)
  transposes_S100x2000_S2000x100_1_0 : S100x2000.Transposes [1, 0] S2000x100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  bcast_S_S16384x100 : S_.BroadcastsInDim S16384x100 (![] : Fin 0 → Fin S16384x100.rank)
  reducesTo_S16384x100_S_d0_1 : S16384x100.ReducesTo [0, 1] S_
  reducesTo_S16384x100_S100_d0 : S16384x100.ReducesTo [0] S100
  reducesTo_S2x100_S_d0_1 : S2x100.ReducesTo [0, 1] S_
  bcast_S_S2x100 : S_.BroadcastsInDim S2x100 (![] : Fin 0 → Fin S2x100.rank)
  bcast_S_S2 : S_.BroadcastsInDim S2 (![] : Fin 0 → Fin S2.rank)
  transposes_S2x100_S100x2_1_0 : S2x100.Transposes [1, 0] S100x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  reducesTo_S16384x2_S_d0_1 : S16384x2.ReducesTo [0, 1] S_
  dot_S16384x2000_S2000x100_S16384x100_1_0_0_1_n_n_wf : DotDims.WF S16384x2000 S2000x100 S16384x100 [1] [0] [0] [1] [] []
  dot_S16384x100_S100x2_S16384x2_1_0_0_1_n_n_wf : DotDims.WF S16384x100 S100x2 S16384x2 [1] [0] [0] [1] [] []

variable [Facts₀]

def dot_S16384x2000_S2000x100_S16384x100_1_0_0_1_n_n : DotDims S16384x2000 S2000x100 S16384x100 where
  lhsContracting := [1]
  rhsContracting := [0]
  lhsNonContracting := [0]
  rhsNonContracting := [1]
  lhsBatch := []
  rhsBatch := []
  wf := dot_S16384x2000_S2000x100_S16384x100_1_0_0_1_n_n_wf
def dot_S16384x100_S100x2_S16384x2_1_0_0_1_n_n : DotDims S16384x100 S100x2 S16384x2 where
  lhsContracting := [1]
  rhsContracting := [0]
  lhsNonContracting := [0]
  rhsNonContracting := [1]
  lhsBatch := []
  rhsBatch := []
  wf := dot_S16384x100_S100x2_S16384x2_1_0_0_1_n_n_wf

class Facts : Prop extends Facts₀ where

variable [Facts]
-- ==== Proof.KRun.lean ====
/-
  The idealized kernel's run, with its result buffer named.

  @main of the idealized kernel is two kernel regions among stretches of host operations. Every weakly fair
  execution from a memory with zero counters terminates without a fault; in the final state every buffer that no
  scope owns holds the contents the segments' fold leaves in it. Read at the result buffer this is the fold's value
  there (`W34 … main_v86`), and at each argument the launch contents. The statement is the frame's, with one more
  conjunct; its proof is the same launch over the same segments, the result buffer read beside the arguments.
-/
import proofs.«123791_j33036888440887_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the value the
    segments' fold leaves there and each argument array as launched. -/
theorem run_result : θ_run defs (onTc (τ := τ) (main (F := F))) ⟨m, fun _ => 0, ρ⟩ (fun r => ∀ c : Dev nD,
      r.2.mem ((c.tc : Thread nD τ).loc main_v86) = W34 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v86 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c)⟩)

end Cert.KernelIdeal.KRun

end
-- ==== Proof.KReg0.lean ====
/-
  The first kernel region's output array, entry by entry.

  The region's grid has sixteen points; point `t` reads the 1024×2000 tile of rows `1024·t … 1024·t + 1023` of the
  activations and writes one row of 128 lanes, row `t` of the 16×1×128 output. The rows tile the output, so after the
  region entry `(t, 0, l)` holds what point `t`'s body stored in lane `l`: its arithmetic applied to tile `t`.
-/
import proofs.«123791_j33036888440887_2_alg».proof.Proof.Gen.KernelIdeal.Frame
import Idealize.ShloMosaic.Lib.ValueIdx
import Idealize.ShloMosaic.Lib.Pipeline.Value

set_option maxRecDepth 16384

noncomputable section

namespace Cert.KernelIdeal.KReg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- Entry `(p, k)` of tile `t` is entry `(1024·t + p, k)` of the array. -/
def tileIdx (t : Fin 16) (y : S1024x2000.Idx) : S16384x2000.Idx :=
  ix2 (⟨t.val * 1024 + (y 0).val, by have h0 : (y 0).val < 1024 := (y 0).isLt; have := t.isLt; omega⟩ : Fin 16384)
      (⟨(y 1).val, (y 1).isLt⟩ : Fin 2000)

/-- Tile `t` of an array of activations. -/
def tile (a : S16384x2000.Idx → EReal) (t : Fin 16) : FVec Ideal S1024x2000 .f32 := fun y => a (tileIdx t y)

/-- The output array: at `(t, 0, l)`, the first body's stored value in lane `l` for tile `t`. -/
def G0 (a : S16384x2000.Idx → EReal) : S16x1x128.Idx → EReal := fun j =>
  k0_pay1 (F := Ideal) (tile a ⟨(j 0).val, (j 0).isLt⟩) (ix3 (0 : Fin 1) (0 : Fin 1) (⟨(j 2).val, (j 2).isLt⟩ : Fin 128))

variable (V : (c : Dev nD) → (b : Ref sig .tc) → Buf (Elt Ideal) ((c : Thread nD τ).loc b))

/-! ## The grid's index maps, the blocks, and the cover -/

theorem hz2 : (![0, 0] : Fin 2 → Nat) = fun _ => 0 := funext fun a => by fin_cases a <;> rfl
theorem hz3 : (![0, 0, 0] : Fin 3 → Nat) = fun _ => 0 := funext fun a => by fin_cases a <;> rfl

/-- The sixteen points, as a literal bound. -/
theorem lt16 (t : Fin cfg0.N) : t.val < 16 := Nat.lt_of_lt_of_eq t.isLt N_0

/-- The printed index maps, decided over the sixteen points: point `t` reads block `(t, 0)` of the activations and
    writes block `(t, 0, 0)` of the output. -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Point `t`'s input block is tile `t` of the activations as the region finds them. -/
theorem iblk0_eq (c : Dev nD) (t : Fin cfg0.N) :
    iblk0 (F := Ideal) V c 0 t = tile (V c main_arg0) ⟨t.val, lt16 t⟩ := by
  obtain ⟨e0, e1, -⟩ := idx_facts0 t
  funext y
  unfold iblk0
  rw [View.read_apply]
  show V c main_arg0 (((cfg0.win 0).blk t).view.emb y) = V c main_arg0 (tileIdx ⟨t.val, lt16 t⟩ y)
  congr 1
  funext a
  apply Fin.ext
  match a with
  | ⟨0, _⟩ =>
    show win0_0.index t (0 : Fin 2) * 1024 + 1 * (y 0).val = t.val * 1024 + (y 0).val
    rw [e0]; omega
  | ⟨1, _⟩ =>
    show win0_0.index t (1 : Fin 2) * 2000 + 1 * (y 1).val = (y 1).val
    rw [e1]; omega

/-- `G0` at an index whose row is `t` and whose lane is `y`'s: the body's stored value for tile `t` at `y` (the two
    unit coordinates of a block index are zero). -/
theorem G0_at (a : S16384x2000.Idx → EReal) (t : Fin 16) (y : S1x1x128.Idx) (i : S16x1x128.Idx)
    (h0 : (i 0).val = t.val) (h2 : (i 2).val = (y 2).val) : G0 a i = k0_pay1 (F := Ideal) (tile a t) y := by
  have e1 : (⟨(i 0).val, (i 0).isLt⟩ : Fin 16) = t := Fin.ext h0
  have e2 : ix3 (0 : Fin 1) (0 : Fin 1) (⟨(i 2).val, (i 2).isLt⟩ : Fin 128) = y := by
    funext d
    apply Fin.ext
    match d with
    | ⟨0, _⟩ => show 0 = (y 0).val; have : (y 0).val < 1 := (y 0).isLt; omega
    | ⟨1, _⟩ => show 0 = (y 1).val; have : (y 1).val < 1 := (y 1).isLt; omega
    | ⟨2, _⟩ => show (i 2).val = (y 2).val; exact h2
  show k0_pay1 (F := Ideal) (tile a ⟨(i 0).val, (i 0).isLt⟩) (ix3 (0 : Fin 1) (0 : Fin 1) (⟨(i 2).val, (i 2).isLt⟩ : Fin 128)) = _
  rw [e1, e2]

/-- An output block read off an array: at block index `y`, the array at the index `y` sits at. -/
theorem read_blk0 (t : Fin cfg0.N) (G : S16x1x128.Idx → EReal) (y : ((cfg0.win 1).xblock (cfg0.grid.coords t)).Idx) :
    ((cfg0.win 1).blk t).view.read (Elt Ideal) G y = G (((cfg0.win 1).blk t).view.emb y) := rfl

/-- WHAT POINT `t` WRITES BACK is block `t` of `G0` of the activations as the region finds them. -/
theorem flushed0_eq (c : Dev nD) (t : Fin cfg0.N) :
    (dat0 (F := Ideal) V c).flushed 1 t = ((cfg0.win 1).blk t).view.read (Elt Ideal) (G0 (V c main_arg0)) := by
  show (cfg0.win 1).cut (grid0.coords t) ((dat0 (F := Ideal) V c).after 1 t) = _
  rw [after0_1]
  unfold out0_1
  rw [View.canon_unit_zero hz3]
  simp only [View.ld_unit_zero (S := S1024x2000) hz2]
  rw [iblk0_eq]
  obtain ⟨-, -, e0, e1, e2⟩ := idx_facts0 t
  funext y
  have h0 : ((((cfg0.win 1).blk t).view.emb y) (0 : Fin 3)).val = t.val := by
    show win0_1.index t (0 : Fin 3) * 1 + 1 * (y 0).val = t.val
    have : (y 0).val < 1 := (y 0).isLt
    rw [e0]; omega
  have h2 : ((((cfg0.win 1).blk t).view.emb y) (2 : Fin 3)).val = (y 2).val := by
    show win0_1.index t (2 : Fin 3) * 128 + 1 * (y 2).val = (y 2).val
    rw [e2]; omega
  have key := G0_at (V c main_arg0) ⟨t.val, lt16 t⟩ y (((cfg0.win 1).blk t).view.emb y) h0 h2
  show k0_pay1 (F := Ideal) (tile (V c main_arg0) ⟨t.val, lt16 t⟩) y = _
  exact key.symm.trans (read_blk0 t (G0 (V c main_arg0)) y).symm

/-- An index of the output is in point `t`'s block iff each coordinate is in the block's range on its axis. -/
theorem mem_blk0 (t : Fin cfg0.N) (i : S16x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v0).slice (win0_1.rect t)).set ↔ _
  rw [View.set_slice_whole, Rect.mem_set_unit]
  exact Iff.rfl

/-- Every index of the output is in the block of the point its row names. -/
theorem cover0 (i : S16x1x128.Idx) : ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 128 := (i 2).isLt
  have hN : cfg0.N = 16 := N_0
  refine ⟨⟨(i 0).val, by rw [hN]; exact hi0⟩, flush0_1 _, ?_⟩
  rw [mem_blk0]
  obtain ⟨-, -, e0, e1, e2⟩ := idx_facts0 ⟨(i 0).val, by rw [hN]; exact hi0⟩
  intro a
  match a with
  | ⟨0, _⟩ =>
    show win0_1.index _ (0 : Fin 3) * 1 ≤ (i 0).val ∧ (i 0).val < win0_1.index _ (0 : Fin 3) * 1 + 1
    rw [e0]; show (i 0).val * 1 ≤ (i 0).val ∧ (i 0).val < (i 0).val * 1 + 1; omega
  | ⟨1, _⟩ =>
    show win0_1.index _ (1 : Fin 3) * 1 ≤ (i 1).val ∧ (i 1).val < win0_1.index _ (1 : Fin 3) * 1 + 1
    rw [e1]; omega
  | ⟨2, _⟩ =>
    show win0_1.index _ (2 : Fin 3) * 128 ≤ (i 2).val ∧ (i 2).val < win0_1.index _ (2 : Fin 3) * 128 + 128
    rw [e2]; omega

/-- After the region its output array is `G0` of the activations as the region found them. -/
theorem final0 (c : Dev nD) : (dat0 (F := Ideal) V c).arrAt 1 cfg0.N = G0 (V c main_arg0) :=
  (dat0 (F := Ideal) V c).arrAt_eq_of_cover 1 (G0 (V c main_arg0)) (fun t _ => flushed0_eq V c t) cover0

end Cert.KernelIdeal.KReg0

end
-- ==== Proof.KReg1.lean ====
/-
  The second kernel region's array of hidden activations, entry by entry.

  Its grid has sixteen points. Point `t` reads the two scalars, tile `t` of the activations, the whole transposed
  padded weight matrix and the whole padded bias, and writes tile `t` (rows `1024·t … 1024·t + 1023`) of the
  16384×128 hidden activations and row `t` of the 16×1×128 array of tile maxima. Both families of blocks tile their
  arrays, so after the region every entry holds what its point's body stored there.
-/
import proofs.«123791_j33036888440887_2_alg».proof.Proof.Gen.KernelIdeal.Frame
import proofs.«123791_j33036888440887_2_alg».proof.Proof.KReg0
import Idealize.ShloMosaic.Lib.ValueIdx
import Idealize.ShloMosaic.Lib.Pipeline.Value

set_option maxRecDepth 16384

noncomputable section

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KReg0

/-- The hidden activations: entry `(r, c)` is the second body's stored value at row `r mod 1024`, column `c` of tile
    `r / 1024`. -/
def G5 (s b : S1x1.Idx → EReal) (a : S16384x2000.Idx → EReal) (wt : S2000x128.Idx → EReal) (bias : S128.Idx → EReal) :
    S16384x128.Idx → EReal := fun i =>
  k1_pay1 (F := Ideal) s b (tile a ⟨(i 0).val / 1024, by have h : (i 0).val < 16384 := (i 0).isLt; omega⟩) wt bias
    (ix2 (⟨(i 0).val % 1024, by omega⟩ : Fin 1024) (⟨(i 1).val, (i 1).isLt⟩ : Fin 128))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the sixteen grid points: the two scalars, the weights and the bias are read
    whole at every point; the activations' and the hidden activations' blocks move with the point. -/
theorem idx_facts5 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A grid point, as a tile number. -/
def tnum (t : Fin cfg1.N) : Fin 16 := ⟨t.val, lt_of_lt_of_eq t.isLt N_1⟩

variable (V : (c : Dev nD) → (b : Ref sig .tc) → Buf (Elt Ideal) ((c : Thread nD τ).loc b))

/-- Window 0's block at every point is the whole activation-scale array. -/
theorem blk0 (c : Dev nD) (t : Fin cfg1.N) : (iblk1 (F := Ideal) V c 0 t : S1x1.Idx → EReal) = V c main_v20 := by
  obtain ⟨e00, e01, -⟩ := idx_facts5 t
  funext y
  show V c main_v20 (((cfg1.win 0).blk t).view.emb y) = V c main_v20 y
  congr 1
  funext a; apply Fin.ext
  match a with
  | ⟨0, _⟩ => show win1_0.index t (0 : Fin 2) * 1 + 1 * (y 0).val = (y 0).val; omega
  | ⟨1, _⟩ => show win1_0.index t (1 : Fin 2) * 1 + 1 * (y 1).val = (y 1).val; omega

/-- Window 1's block at every point is the whole bias-scale array. -/
theorem blk1 (c : Dev nD) (t : Fin cfg1.N) : (iblk1 (F := Ideal) V c 1 t : S1x1.Idx → EReal) = V c main_v21 := by
  obtain ⟨-, -, e10, e11, -⟩ := idx_facts5 t
  funext y
  show V c main_v21 (((cfg1.win 1).blk t).view.emb y) = V c main_v21 y
  congr 1
  funext a; apply Fin.ext
  match a with
  | ⟨0, _⟩ => show win1_1.index t (0 : Fin 2) * 1 + 1 * (y 0).val = (y 0).val; omega
  | ⟨1, _⟩ => show win1_1.index t (1 : Fin 2) * 1 + 1 * (y 1).val = (y 1).val; omega

/-- Window 2's block at point `t` is tile `t` of the activations. -/
theorem blk2 (c : Dev nD) (t : Fin cfg1.N) :
    (iblk1 (F := Ideal) V c 2 t : S1024x2000.Idx → EReal) = tile (V c main_arg0) (tnum t) := by
  obtain ⟨-, -, -, -, e20, e21, -⟩ := idx_facts5 t
  funext y
  show V c main_arg0 (((cfg1.win 2).blk t).view.emb y) = V c main_arg0 (tileIdx (tnum t) y)
  congr 1
  funext a; apply Fin.ext
  match a with
  | ⟨0, _⟩ => show win1_2.index t (0 : Fin 2) * 1024 + 1 * (y 0).val = t.val * 1024 + (y 0).val; omega
  | ⟨1, _⟩ => show win1_2.index t (1 : Fin 2) * 2000 + 1 * (y 1).val = (y 1).val; omega

/-- Window 3's block at every point is the whole weight array. -/
theorem blk3 (c : Dev nD) (t : Fin cfg1.N) : (iblk1 (F := Ideal) V c 3 t : S2000x128.Idx → EReal) = V c main_v11 := by
  obtain ⟨-, -, -, -, -, -, e30, e31, -⟩ := idx_facts5 t
  funext y
  show V c main_v11 (((cfg1.win 3).blk t).view.emb y) = V c main_v11 y
  congr 1
  funext a; apply Fin.ext
  match a with
  | ⟨0, _⟩ => show win1_3.index t (0 : Fin 2) * 2000 + 1 * (y 0).val = (y 0).val; omega
  | ⟨1, _⟩ => show win1_3.index t (1 : Fin 2) * 128 + 1 * (y 1).val = (y 1).val; omega

/-- Window 4's block at every point is the whole bias array. -/
theorem blk4 (c : Dev nD) (t : Fin cfg1.N) : (iblk1 (F := Ideal) V c 4 t : S128.Idx → EReal) = V c main_v19 := by
  obtain ⟨-, -, -, -, -, -, -, -, e40, -⟩ := idx_facts5 t
  funext y
  show V c main_v19 (((cfg1.win 4).blk t).view.emb y) = V c main_v19 y
  congr 1
  funext a; apply Fin.ext
  match a with
  | ⟨0, _⟩ => show win1_4.index t (0 : Fin 1) * 128 + 1 * (y 0).val = (y 0).val; omega

/-- `G5` at the entry of tile `t` at row `y 0`, column `y 1` is the body's stored value there. -/
theorem G5_at (s b : S1x1.Idx → EReal) (a : S16384x2000.Idx → EReal) (wt : S2000x128.Idx → EReal) (bias : S128.Idx → EReal)
    (t : Fin 16) (y : S1024x128.Idx) (i : S16384x128.Idx) (h0 : (i 0).val = t.val * 1024 + (y 0).val) (h1 : (i 1).val = (y 1).val) :
    G5 s b a wt bias i = k1_pay1 (F := Ideal) s b (tile a t) wt bias y := by
  have hy0 : (y 0).val < 1024 := (y 0).isLt
  have key : ∀ (t' : Fin 16) (y' : S1024x128.Idx), t' = t → y' = y →
      k1_pay1 (F := Ideal) s b (tile a t') wt bias y' = k1_pay1 (F := Ideal) s b (tile a t) wt bias y := by
    rintro _ _ rfl rfl; rfl
  unfold G5
  exact key _ _ (Fin.ext (by show (i 0).val / 1024 = t.val; omega))
    (funext fun d => Fin.ext (by
      match d with
      | ⟨0, _⟩ => show (i 0).val % 1024 = (y 0).val; omega
      | ⟨1, _⟩ => exact h1))

/-- What point `t` writes back is block `t` of `G5` of the arrays as the region finds them. -/
theorem flushed5_eq (c : Dev nD) (t : Fin cfg1.N) :
    (dat1 (F := Ideal) V c).flushed 5 t
      = ((cfg1.win 5).blk t).view.read (Elt Ideal) (G5 (V c main_v20) (V c main_v21) (V c main_arg0) (V c main_v11) (V c main_v19)) := by
  show (cfg1.win 5).cut (grid1.coords t) ((dat1 (F := Ideal) V c).after 5 t) = _
  rw [after1_5]
  unfold out1_5
  rw [View.canon_unit_zero hz2]
  simp only [View.ld_unit_zero (S := S1x1) hz2, View.ld_unit_zero (S := S1024x2000) hz2, View.ld_unit_zero (S := S2000x128) hz2,
    View.ld_unit_zero (S := S128) hz1]
  rw [blk0, blk1, blk2, blk3, blk4]
  obtain ⟨-, -, -, -, -, -, -, -, -, e50, e51⟩ := idx_facts5 t
  funext y
  show k1_pay1 (F := Ideal) (V c main_v20) (V c main_v21) (tile (V c main_arg0) (tnum t)) (V c main_v11) (V c main_v19) y
    = G5 (V c main_v20) (V c main_v21) (V c main_arg0) (V c main_v11) (V c main_v19) (((cfg1.win 5).blk t).view.emb y)
  refine (G5_at _ _ _ _ _ (tnum t) y _ ?_ ?_).symm
  · show win1_5.index t (0 : Fin 2) * 1024 + 1 * (y 0).val = t.val * 1024 + (y 0).val; omega
  · show win1_5.index t (1 : Fin 2) * 128 + 1 * (y 1).val = (y 1).val; omega

/-- An index of the array is in point `t`'s block iff each coordinate is in the block's range on its axis. -/
theorem mem_blk5 (t : Fin cfg1.N) (i : S16384x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v22_0).slice (win1_5.rect t)).set ↔ _
  rw [View.set_slice_whole, Rect.mem_set_unit]
  exact Iff.rfl

/-- Every entry of the array is in the block of the point that writes its tile. -/
theorem cover5 (i : S16384x128.Idx) : ∃ t : Fin cfg1.N, (cfg1.win 5).flush t = true ∧ i ∈ ((cfg1.win 5).blk t).view.set := by
  have hi0 : (i 0).val < 16384 := (i 0).isLt
  have hi1 : (i 1).val < 128 := (i 1).isLt
  have hN : grid1.N = 16 := N_1
  have hlt : (i 0).val / 1024 < cfg1.N := by show (i 0).val / 1024 < grid1.N; rw [hN]; omega
  obtain ⟨-, -, -, -, -, -, -, -, -, e50, e51⟩ := idx_facts5 ⟨(i 0).val / 1024, hlt⟩
  have e50' : win1_5.index ⟨(i 0).val / 1024, hlt⟩ (0 : Fin 2) = (i 0).val / 1024 := e50
  refine ⟨⟨(i 0).val / 1024, hlt⟩, flush1_5 _, ?_⟩
  rw [mem_blk5]
  intro a
  match a with
  | ⟨0, _⟩ => show win1_5.index ⟨(i 0).val / 1024, hlt⟩ (0 : Fin 2) * 1024 ≤ (i 0).val ∧ (i 0).val < win1_5.index ⟨(i 0).val / 1024, hlt⟩ (0 : Fin 2) * 1024 + 1024; omega
  | ⟨1, _⟩ => show win1_5.index ⟨(i 0).val / 1024, hlt⟩ (1 : Fin 2) * 128 ≤ (i 1).val ∧ (i 1).val < win1_5.index ⟨(i 0).val / 1024, hlt⟩ (1 : Fin 2) * 128 + 128; omega

theorem final5 (c : Dev nD) :
    (dat1 (F := Ideal) V c).arrAt 5 cfg1.N = G5 (V c main_v20) (V c main_v21) (V c main_arg0) (V c main_v11) (V c main_v19) :=
  (dat1 (F := Ideal) V c).arrAt_eq_of_cover 5 (G5 (V c main_v20) (V c main_v21) (V c main_arg0) (V c main_v11) (V c main_v19))
    (fun t _ => flushed5_eq V c t) cover5

end Cert.KernelIdeal.KReg1

end
-- ==== Proof.KReg1b.lean ====
/-
  The second kernel region's array of tile maxima, entry by entry.

  Its grid has sixteen points. Point `t` reads the two scalars, tile `t` of the activations, the whole transposed
  padded weight matrix and the whole padded bias, and writes tile `t` (rows `1024·t … 1024·t + 1023`) of the
  16384×128 hidden activations and row `t` of the 16×1×128 array of tile maxima. Both families of blocks tile their
  arrays, so after the region every entry holds what its point's body stored there.
-/
import proofs.«123791_j33036888440887_2_alg».proof.Proof.Gen.KernelIdeal.Frame
import proofs.«123791_j33036888440887_2_alg».proof.Proof.KReg0
import Idealize.ShloMosaic.Lib.ValueIdx
import Idealize.ShloMosaic.Lib.Pipeline.Value

set_option maxRecDepth 16384

noncomputable section

namespace Cert.KernelIdeal.KReg1b

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KReg0

/-- The tile maxima: entry `(t, 0, l)` is the second body's second stored value in lane `l` for tile `t`. -/
def G6 (s b : S1x1.Idx → EReal) (a : S16384x2000.Idx → EReal) (wt : S2000x128.Idx → EReal) (bias : S128.Idx → EReal) :
    S16x1x128.Idx → EReal := fun j =>
  k1_pay2 (F := Ideal) s b (tile a ⟨(j 0).val, (j 0).isLt⟩) wt bias
    (ix3 (0 : Fin 1) (0 : Fin 1) (⟨(j 2).val, (j 2).isLt⟩ : Fin 128))

variable (V : (c : Dev nD) → (b : Ref sig .tc) → Buf (Elt Ideal) ((c : Thread nD τ).loc b))

/-! ## The grid's index maps, the blocks, and the cover -/

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

/-- The sixteen points, as a literal bound. -/
theorem lt16' (t : Fin cfg1.N) : t.val < 16 := Nat.lt_of_lt_of_eq t.isLt N_1

/-- The printed index maps, decided over the sixteen points: the scalars, the weights and the bias are read whole at
    every point; point `t` reads block `(t, 0)` of the activations and writes block `(t, 0, 0)` of the maxima. -/
theorem idx_facts6 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_6.index t (0 : Fin 3) = t.val ∧ win1_6.index t (1 : Fin 3) = 0 ∧ win1_6.index t (2 : Fin 3) = 0 :=
  (by decide +kernel : ∀ t : Fin grid1.N, _)

/-- The first scalar's block is the whole 1×1 array. -/
theorem iblk1_0_eq (c : Dev nD) (t : Fin cfg1.N) : iblk1 (F := Ideal) V c 0 t = (V c main_v20 : S1x1.Idx → EReal) := by
  obtain ⟨e0, e1, -⟩ := idx_facts6 t
  funext y
  unfold iblk1
  rw [View.read_apply]
  show V c main_v20 (((cfg1.win 0).blk t).view.emb y) = V c main_v20 y
  congr 1
  funext a
  apply Fin.ext
  match a with
  | ⟨0, _⟩ => show win1_0.index t (0 : Fin 2) * 1 + 1 * (y 0).val = (y 0).val; rw [e0]; omega
  | ⟨1, _⟩ => show win1_0.index t (1 : Fin 2) * 1 + 1 * (y 1).val = (y 1).val; rw [e1]; omega

/-- The second scalar's block is the whole 1×1 array. -/
theorem iblk1_1_eq (c : Dev nD) (t : Fin cfg1.N) : iblk1 (F := Ideal) V c 1 t = (V c main_v21 : S1x1.Idx → EReal) := by
  obtain ⟨-, -, e0, e1, -⟩ := idx_facts6 t
  funext y
  unfold iblk1
  rw [View.read_apply]
  show V c main_v21 (((cfg1.win 1).blk t).view.emb y) = V c main_v21 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

/-- Point `t`'s block of the activations is tile `t`. -/
theorem iblk1_2_eq (c : Dev nD) (t : Fin cfg1.N) :
    iblk1 (F := Ideal) V c 2 t = tile (V c main_arg0) ⟨t.val, lt16' t⟩ := by
  obtain ⟨-, -, -, -, e0, e1, -⟩ := idx_facts6 t
  funext y
  unfold iblk1
  rw [View.read_apply]
  show V c main_arg0 (((cfg1.win 2).blk t).view.emb y) = V c main_arg0 (tileIdx ⟨t.val, lt16' t⟩ y)
  congr 1
  funext a
  apply Fin.ext
  match a with
  | ⟨0, _⟩ =>
    show win1_2.index t (0 : Fin 2) * 1024 + 1 * (y 0).val = t.val * 1024 + (y 0).val
    rw [e0]; omega
  | ⟨1, _⟩ =>
    show win1_2.index t (1 : Fin 2) * 2000 + 1 * (y 1).val = (y 1).val
    rw [e1]; omega

/-- The weight matrix's block is the whole 2000×128 array. -/
theorem iblk1_3_eq (c : Dev nD) (t : Fin cfg1.N) : iblk1 (F := Ideal) V c 3 t = (V c main_v11 : S2000x128.Idx → EReal) := by
  obtain ⟨-, -, -, -, -, -, e0, e1, -⟩ := idx_facts6 t
  funext y
  unfold iblk1
  rw [View.read_apply]
  show V c main_v11 (((cfg1.win 3).blk t).view.emb y) = V c main_v11 y
  congr 1
  funext a
  apply Fin.ext
  match a with
  | ⟨0, _⟩ => show win1_3.index t (0 : Fin 2) * 2000 + 1 * (y 0).val = (y 0).val; rw [e0]; omega
  | ⟨1, _⟩ => show win1_3.index t (1 : Fin 2) * 128 + 1 * (y 1).val = (y 1).val; rw [e1]; omega

/-- The bias's block is the whole array of 128. -/
theorem iblk1_4_eq (c : Dev nD) (t : Fin cfg1.N) : iblk1 (F := Ideal) V c 4 t = (V c main_v19 : S128.Idx → EReal) := by
  obtain ⟨-, -, -, -, -, -, -, -, e0, -⟩ := idx_facts6 t
  funext y
  unfold iblk1
  rw [View.read_apply]
  show V c main_v19 (((cfg1.win 4).blk t).view.emb y) = V c main_v19 y
  congr 1
  funext a
  apply Fin.ext
  match a with
  | ⟨0, _⟩ => show win1_4.index t (0 : Fin 1) * 128 + 1 * (y 0).val = (y 0).val; rw [e0]; omega

/-- `G6` at an index whose row is `t` and whose lane is `y`'s: the body's second stored value for tile `t` at `y` (the
    two unit coordinates of a block index are zero). -/
theorem G6_at (s b : S1x1.Idx → EReal) (a : S16384x2000.Idx → EReal) (wt : S2000x128.Idx → EReal) (bias : S128.Idx → EReal)
    (t : Fin 16) (y : S1x1x128.Idx) (i : S16x1x128.Idx) (h0 : (i 0).val = t.val) (h2 : (i 2).val = (y 2).val) :
    G6 s b a wt bias i = k1_pay2 (F := Ideal) s b (tile a t) wt bias y := by
  have e1 : (⟨(i 0).val, (i 0).isLt⟩ : Fin 16) = t := Fin.ext h0
  have e2 : ix3 (0 : Fin 1) (0 : Fin 1) (⟨(i 2).val, (i 2).isLt⟩ : Fin 128) = y := by
    funext d
    apply Fin.ext
    match d with
    | ⟨0, _⟩ => show 0 = (y 0).val; have : (y 0).val < 1 := (y 0).isLt; omega
    | ⟨1, _⟩ => show 0 = (y 1).val; have : (y 1).val < 1 := (y 1).isLt; omega
    | ⟨2, _⟩ => show (i 2).val = (y 2).val; exact h2
  show k1_pay2 (F := Ideal) s b (tile a ⟨(i 0).val, (i 0).isLt⟩) wt bias (ix3 (0 : Fin 1) (0 : Fin 1) (⟨(i 2).val, (i 2).isLt⟩ : Fin 128)) = _
  rw [e1, e2]

/-- A block of the maxima read off an array: at block index `y`, the array at the index `y` sits at. -/
theorem read_blk6 (t : Fin cfg1.N) (G : S16x1x128.Idx → EReal) (y : ((cfg1.win 6).xblock (cfg1.grid.coords t)).Idx) :
    ((cfg1.win 6).blk t).view.read (Elt Ideal) G y = G (((cfg1.win 6).blk t).view.emb y) := rfl

/-- WHAT POINT `t` WRITES BACK to the maxima is block `t` of `G6` of the arrays as the region finds them. -/
theorem flushed6_eq (c : Dev nD) (t : Fin cfg1.N) :
    (dat1 (F := Ideal) V c).flushed 6 t
      = ((cfg1.win 6).blk t).view.read (Elt Ideal) (G6 (V c main_v20) (V c main_v21) (V c main_arg0) (V c main_v11) (V c main_v19)) := by
  show (cfg1.win 6).cut (grid1.coords t) ((dat1 (F := Ideal) V c).after 6 t) = _
  rw [after1_6]
  unfold out1_6
  rw [View.canon_unit_zero z3]
  simp only [View.ld_unit_zero (S := S1x1) z2, View.ld_unit_zero (S := S1024x2000) z2, View.ld_unit_zero (S := S2000x128) z2,
    View.ld_unit_zero (S := S128) z1]
  rw [iblk1_0_eq, iblk1_1_eq, iblk1_2_eq, iblk1_3_eq, iblk1_4_eq]
  obtain ⟨-, -, -, -, -, -, -, -, -, e0, e1, e2⟩ := idx_facts6 t
  funext y
  have h0 : ((((cfg1.win 6).blk t).view.emb y) (0 : Fin 3)).val = t.val := by
    show win1_6.index t (0 : Fin 3) * 1 + 1 * (y 0).val = t.val
    have : (y 0).val < 1 := (y 0).isLt
    rw [e0]; omega
  have h2 : ((((cfg1.win 6).blk t).view.emb y) (2 : Fin 3)).val = (y 2).val := by
    show win1_6.index t (2 : Fin 3) * 128 + 1 * (y 2).val = (y 2).val
    rw [e2]; omega
  have key := G6_at (V c main_v20) (V c main_v21) (V c main_arg0) (V c main_v11) (V c main_v19) ⟨t.val, lt16' t⟩ y
    (((cfg1.win 6).blk t).view.emb y) h0 h2
  show k1_pay2 (F := Ideal) (V c main_v20) (V c main_v21) (tile (V c main_arg0) ⟨t.val, lt16' t⟩) (V c main_v11) (V c main_v19) y = _
  exact key.symm.trans (read_blk6 t (G6 (V c main_v20) (V c main_v21) (V c main_arg0) (V c main_v11) (V c main_v19)) y).symm

/-- An index of the maxima is in point `t`'s block iff each coordinate is in the block's range on its axis. -/
theorem mem_blk6 (t : Fin cfg1.N) (i : S16x1x128.Idx) :
    i ∈ ((cfg1.win 6).blk t).view.set ↔ ∀ a : Fin 3, win1_6.index t a * S1x1x128.size a ≤ (i a).val ∧ (i a).val < win1_6.index t a * S1x1x128.size a + S1x1x128.size a := by
  show i ∈ ((View.whole main_v22_1).slice (win1_6.rect t)).set ↔ _
  rw [View.set_slice_whole, Rect.mem_set_unit]
  exact Iff.rfl

/-- Every index of the maxima is in the block of the point its row names. -/
theorem cover6 (i : S16x1x128.Idx) : ∃ t : Fin cfg1.N, (cfg1.win 6).flush t = true ∧ i ∈ ((cfg1.win 6).blk t).view.set := by
  have hi0 : (i 0).val < 16 := (i 0).isLt
  have hi1 : (i 1).val < 1 := (i 1).isLt
  have hi2 : (i 2).val < 128 := (i 2).isLt
  have hN : cfg1.N = 16 := N_1
  refine ⟨⟨(i 0).val, by rw [hN]; exact hi0⟩, flush1_6 _, ?_⟩
  rw [mem_blk6]
  obtain ⟨-, -, -, -, -, -, -, -, -, e0, e1, e2⟩ := idx_facts6 ⟨(i 0).val, by rw [hN]; exact hi0⟩
  intro a
  match a with
  | ⟨0, _⟩ =>
    show win1_6.index _ (0 : Fin 3) * 1 ≤ (i 0).val ∧ (i 0).val < win1_6.index _ (0 : Fin 3) * 1 + 1
    rw [e0]; show (i 0).val * 1 ≤ (i 0).val ∧ (i 0).val < (i 0).val * 1 + 1; omega
  | ⟨1, _⟩ =>
    show win1_6.index _ (1 : Fin 3) * 1 ≤ (i 1).val ∧ (i 1).val < win1_6.index _ (1 : Fin 3) * 1 + 1
    rw [e1]; omega
  | ⟨2, _⟩ =>
    show win1_6.index _ (2 : Fin 3) * 128 ≤ (i 2).val ∧ (i 2).val < win1_6.index _ (2 : Fin 3) * 128 + 128
    rw [e2]; omega

/-- After the region the array of tile maxima is `G6` of the arrays as the region found them. -/
theorem final6 (c : Dev nD) :
    (dat1 (F := Ideal) V c).arrAt 6 cfg1.N = G6 (V c main_v20) (V c main_v21) (V c main_arg0) (V c main_v11) (V c main_v19) :=
  (dat1 (F := Ideal) V c).arrAt_eq_of_cover 6 (G6 (V c main_v20) (V c main_v21) (V c main_arg0) (V c main_v11) (V c main_v19))
    (fun t _ => flushed6_eq V c t) cover6

end Cert.KernelIdeal.KReg1b

end
-- ==== Proof.LibGmax.lean ====
/-
  Maxima of finite families of extended reals, and the reductions that compute them.

  `gmax f` is the maximum of the finite family `f`, taken from `-∞`: it is below a bound exactly when every
  member is, so two families each of whose members is dominated by a member of the other have one maximum
  (a maximum taken tile by tile and then over the tiles is the maximum of the whole; padding a family of
  nonnegative numbers with zeros does not change its maximum). A host `reduce` with `maximum` from `-∞` into a
  result of one element, and a vector `multi_reduction <maximumf>` from `-∞` into one element, are `gmax` of
  their operand.

  Also the three scalar laws a symmetric quantised linear layer needs on the extended reals: a quotient by one;
  `(q·s)/s = q` for a nonzero real scale; and `(a + b)·c = a·c + b·c` for a nonnegative finite `c` — joined in
  `qlinear_eq`: with the scale `s ≥ 0` finite, `relu(acc·(w·s) + bq·(w·s))` over the integer activations `q` is
  `relu((acc' + bq)·(w·s))` over the de-quantised-then-re-quantised activations `(q·s)/s`; at `s = 0` both are `0`.
-/
import Idealize.ShloMosaic.PureOps.Ideal
import Idealize.ShloMosaic.PureOps.Ideal.Laws
import Idealize.ShloMosaic.PureOps.Reduce

noncomputable section

namespace Cert.Gmax

open Idealize.ShloMosaic

/-- The maximum of a finite family of extended reals, from `-∞`. -/
def gmax {ι : Type} [Fintype ι] (f : ι → EReal) : EReal := (Finset.univ : Finset ι).fold max ⊥ f

theorem gmax_le_iff {ι : Type} [Fintype ι] (f : ι → EReal) (c : EReal) : gmax f ≤ c ↔ ∀ i, f i ≤ c := by
  unfold gmax
  rw [Finset.fold_max_le]
  simp

theorem le_gmax {ι : Type} [Fintype ι] (f : ι → EReal) (i : ι) : f i ≤ gmax f := by
  exact (gmax_le_iff f (gmax f)).1 le_rfl i

/-- Two families each of whose members is dominated by a member of the other have the same maximum. -/
theorem gmax_eq_of_dom {ι κ : Type} [Fintype ι] [Fintype κ] (f : ι → EReal) (g : κ → EReal)
    (h1 : ∀ i, ∃ j, f i ≤ g j) (h2 : ∀ j, ∃ i, g j ≤ f i) : gmax f = gmax g := by
  apply le_antisymm
  · rw [gmax_le_iff]
    intro i
    obtain ⟨j, hj⟩ := h1 i
    exact le_trans hj (le_gmax g j)
  · rw [gmax_le_iff]
    intro j
    obtain ⟨i, hi⟩ := h2 j
    exact le_trans hi (le_gmax f i)

theorem gmax_nonneg {ι : Type} [Fintype ι] [Nonempty ι] (f : ι → EReal) (h : ∀ i, 0 ≤ f i) : 0 ≤ gmax f := by
  obtain ⟨i⟩ := ‹Nonempty ι›
  exact le_trans (h i) (le_gmax f i)

theorem gmax_ne_top {ι : Type} [Fintype ι] (f : ι → EReal) (h : ∀ i, f i ≠ ⊤) : gmax f ≠ ⊤ := by
  apply ne_of_lt
  unfold gmax
  rw [Finset.fold_max_lt]
  exact ⟨bot_lt_top, fun i _ => lt_top_iff_ne_top.2 (h i)⟩

/-- `|x| = max x (-x)` is nonnegative. -/
theorem abs_nonneg (x : EReal) : 0 ≤ max x (-x) := by
  rcases le_total 0 x with h | h
  · exact le_max_of_le_left h
  · exact le_max_of_le_right (EReal.neg_nonneg.2 h)

theorem abs_ne_top (x : EReal) (h1 : x ≠ ⊤) (h2 : x ≠ ⊥) : max x (-x) ≠ ⊤ := by
  rcases max_choice x (-x) with h | h
  · rw [h]; exact h1
  · rw [h]; intro h3; exact h2 (EReal.neg_eq_top_iff.1 h3)

/-- The pattern of `-∞`. -/
theorem ofBits_neg_inf : Ideal.ofBits .f32 0xFF800000#32 = ⊥ := by
  simp [Ideal.ofBits, Ideal.ieee]

/-- A host `reduce` with `maximum` into a result whose axes all have size one, from an initial value `-∞`. -/
theorem hostReduce_max_scalar {s t u : Shape} {axes : List (Fin s.rank)} (x : s.Idx → EReal) (init : u.Idx → EReal)
    (h : s.ReducesTo axes t) (hu : 0 < u.numel) (ht : ∀ b, t.size b = 1)
    (hinit : init (Shape.Idx.first hu) = ⊥) (j : t.Idx) :
    Host.reduce (FloatOps.maximumf (F := Ideal) (φ := .f32)) x init h hu j = gmax x := by
  rw [Host.reduce_eq_fold, hinit]
  have hf : (Finset.univ.filter fun i => h.drop i = j) = Finset.univ := by
    apply Finset.filter_true_of_mem
    intro i _
    funext b
    apply Fin.ext
    have := (h.drop i b).isLt
    have := (j b).isLt
    have := ht b
    omega
  rw [hf]
  rfl

/-- A vector `multi_reduction <maximumf>` into a result whose axes all have size one, from the accumulator `-∞`. -/
theorem multiReduction_max_scalar {s t : Shape} {axes : List (Fin s.rank)} (src : FVec Ideal s .f32)
    (h : s.Reduces axes t) (hφ : FKind.Formats .f32) (hacc : (0xFF800000#32 : BitVec 32) = FKind.maximumf.neutral .f32 hφ)
    (ht : ∀ b, t.size b = 1) (j : t.Idx) :
    multiReduction .maximumf axes t src 0xFF800000#32 h hφ hacc j = gmax src := by
  rw [multiReduction_maximumf_eq_fold]
  have hf : (Finset.univ.filter fun i => h.drop i = j) = Finset.univ := by
    apply Finset.filter_true_of_mem
    intro i _
    funext b
    apply Fin.ext
    have := (h.drop i b).isLt
    have := (j b).isLt
    have := ht b
    omega
  rw [hf, Ideal.ofBits_def, ofBits_neg_inf]
  rfl

/-- A quotient by one. -/
theorem div_one (x : EReal) : Ideal.div x 1 = x := by
  have h : Ideal.div x ((1 : ℝ) : EReal) = x * ((1 / (1 : ℝ) : ℝ) : EReal) := Ideal.div_coe one_ne_zero x
  rw [EReal.coe_one] at h
  rw [h]; simp

/-- `(q·s)/s = q` for a nonzero real `s`. -/
theorem mul_div_cancel_coe (q : EReal) {s : ℝ} (hs : s ≠ 0) : Ideal.div (q * (s : EReal)) (s : EReal) = q := by
  rw [Ideal.div_coe hs, mul_assoc, ← EReal.coe_mul, mul_one_div_cancel hs, EReal.coe_one, mul_one]

/-- The quantised linear layer over integer activations `q` and over `(q·s)/s`: one value after the ReLU, for a
    finite scale `s ≥ 0` and a finite weight scale `w ≥ 0` (at `s = 0` both sides are `max 0 0`). -/
theorem qlinear_eq {K : Type} [Fintype K] (q wv : K → EReal) (s w bq : EReal)
    (hs0 : 0 ≤ s) (hsT : s ≠ ⊤) (hw0 : 0 ≤ w) (hwT : w ≠ ⊤) :
    max ((∑ k, q k * wv k) * (w * s) + bq * (w * s)) 0
      = max (((∑ k, Ideal.div (q k * s) s * wv k) + bq) * (w * s)) 0 := by
  rcases eq_or_ne s 0 with rfl | hs
  · simp
  · have hsB : s ≠ ⊥ := ne_bot_of_le_ne_bot EReal.zero_ne_bot hs0
    have hwB : w ≠ ⊥ := ne_bot_of_le_ne_bot EReal.zero_ne_bot hw0
    lift s to ℝ using ⟨hsT, hsB⟩
    lift w to ℝ using ⟨hwT, hwB⟩
    have hs' : s ≠ 0 := by exact_mod_cast hs
    have h0 : (0 : EReal) ≤ (w : EReal) * (s : EReal) := mul_nonneg hw0 hs0
    have hT : (w : EReal) * (s : EReal) ≠ ⊤ := by
      rw [← EReal.coe_mul]; exact EReal.coe_ne_top _
    simp only [mul_div_cancel_coe _ hs']
    rw [EReal.right_distrib_of_nonneg_of_ne_top h0 hT]

end Cert.Gmax

end
-- ==== Proof.KPay.lean ====
/-
  The two kernel bodies' arithmetic, read at an entry of what they store.

  The first body stores, in every lane of its one output row, the maximum of `|x|` over its 1024×2000 tile. The
  second stores the tile of hidden activations
    `relu((∑ₖ clip(round(x[p,k]/s), -16, 15)·Wt[k,c])·b + bias[c])`
  (`s` and `b` the two scalars it is handed, `Wt` the transposed padded weights) and, in every lane of its second
  output row, the maximum of the absolute values of that tile.
-/
import proofs.«123791_j33036888440887_2_alg».proof.Proof.Gen.KernelIdeal.Skeleton
import proofs.«123791_j33036888440887_2_alg».proof.Proof.LibGmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen Cert.Gmax

/-- A tile's maximum of absolute values, over the tile with a leading unit axis. -/
theorem gmax_cast3 {a b : ℕ} (v : (⟨2, ![a, b]⟩ : Shape).Idx → EReal) (h : (⟨2, ![a, b]⟩ : Shape).ShapeCasts ⟨3, ![1, a, b]⟩) :
    gmax (shapeCast ⟨3, ![1, a, b]⟩ v h) = gmax v := by
  refine gmax_eq_of_dom _ _ (fun i => ⟨fun d => i d.succ, le_of_eq ?_⟩) (fun y => ⟨ix3 0 (y 0) (y 1), le_of_eq ?_⟩)
  · exact shapeCast_addUnit_apply ![a, b] v h i
  · exact (congrArg v (eq_ix2 y)).trans (shapeCast_ab_1ab_apply v h 0 (y 0) (y 1)).symm

/-- The chain of layout operations after a reduction to one element reads that element. -/
theorem lane_chain (m : FVec Ideal S1 .f32) (j : S1x1x128.Idx) :
    ∃ i : S1.Idx, broadcastTo S1x1x128 (shapeCast S1x1x1 (shapeCast S1x1x1 (broadcast S1x1
        (extractAt ![0, 0, 0] (shapeCast S1x1x1 m shapeCasts_S1_S1x1x1) inpos_S1x1x1_p0_0_0))
        shapeCasts_S1x1_S1x1x1) shapeCasts_S1x1x1_S1x1x1) broadcasts_S1x1x1_S1x1x128 j = m i :=
  ⟨_, rfl⟩

theorem pay_max_abs (v0 : FVec Ideal S1024x2000 .f32) (j : S1x1x128.Idx) :
    k0_pay1 (F := Ideal) v0 j = gmax (fun y : S1024x2000.Idx => max (v0 y) (-(v0 y))) := by
  obtain ⟨i, hi⟩ := lane_chain (multiReduction .maximumf [1, 2] S1
    (shapeCast S1x1024x2000 (absf v0) shapeCasts_S1024x2000_S1x1024x2000) 0xFF800000#32 reduces_S1x1024x2000_S1 (.inl rfl) rfl) j
  unfold k0_pay1
  refine hi.trans ?_
  refine (multiReduction_max_scalar _ reduces_S1x1024x2000_S1 _ _ (fun b => by match b with | ⟨0, _⟩ => rfl) i).trans ?_
  exact gmax_cast3 (absf v0) shapeCasts_S1024x2000_S1x1024x2000

/-- The same for the second body's maximum over its tile of hidden activations. -/
theorem pay_max_hidden (v0 v2 : FVec Ideal S1x1 .f32) (v4 : FVec Ideal S1024x2000 .f32) (v13 : FVec Ideal S2000x128 .bf16)
    (v18 : FVec Ideal S128 .f32) (j : S1x1x128.Idx) :
    k1_pay2 (F := Ideal) v0 v2 v4 v13 v18 j
      = gmax (fun y : S1024x128.Idx => max (k1_pay1 (F := Ideal) v0 v2 v4 v13 v18 y) (-(k1_pay1 (F := Ideal) v0 v2 v4 v13 v18 y))) := by
  unfold k1_pay2
  generalize k1_pay1 (F := Ideal) v0 v2 v4 v13 v18 = hh
  obtain ⟨i, hi⟩ := lane_chain (multiReduction .maximumf [1, 2] S1
    (shapeCast S1x1024x128 (absf hh) shapeCasts_S1024x128_S1x1024x128) 0xFF800000#32 reduces_S1x1024x128_S1 (.inl rfl) rfl) j
  refine hi.trans ?_
  refine (multiReduction_max_scalar _ reduces_S1x1024x128_S1 _ _ (fun b => by match b with | ⟨0, _⟩ => rfl) i).trans ?_
  exact gmax_cast3 (absf hh) shapeCasts_S1024x128_S1x1024x128

/-! ## The tile's matrix product at an entry -/

theorem lhs_row (i : S1024x128.Idx) (q : dot_S1024x2000_S2000x128_S1024x128_1_0_0_1_n_n.contr.Idx) : (dot_S1024x2000_S2000x128_S1024x128_1_0_0_1_n_n.lhsIdx i q 0).val = (i 0).val := by
  unfold DotDims.lhsIdx
  rw [dif_neg (show ¬(0 : Fin S1024x2000.rank) ∈ dot_S1024x2000_S2000x128_S1024x128_1_0_0_1_n_n.lhsBatch by decide), dif_pos (show (0 : Fin S1024x2000.rank) ∈ dot_S1024x2000_S2000x128_S1024x128_1_0_0_1_n_n.lhsNonContracting by decide)]
  rfl
theorem rhs_col (i : S1024x128.Idx) (q : dot_S1024x2000_S2000x128_S1024x128_1_0_0_1_n_n.contr.Idx) : (dot_S1024x2000_S2000x128_S1024x128_1_0_0_1_n_n.rhsIdx i q 1).val = (i 1).val := by
  unfold DotDims.rhsIdx
  rw [dif_neg (show ¬(1 : Fin S2000x128.rank) ∈ dot_S1024x2000_S2000x128_S1024x128_1_0_0_1_n_n.rhsBatch by decide), dif_pos (show (1 : Fin S2000x128.rank) ∈ dot_S1024x2000_S2000x128_S1024x128_1_0_0_1_n_n.rhsNonContracting by decide)]
  rfl

/-- The product of a 1024×2000 tile with the 2000×128 weights into a zero accumulator, at row `p`, column `c`. -/
theorem tile_dot_apply (y0 : FVec Ideal S1024x2000 .bf16) (y1 : FVec Ideal S2000x128 .bf16) (p : Fin 1024) (c : Fin 128) :
    FloatOps.matmul dot_S1024x2000_S2000x128_S1024x128_1_0_0_1_n_n none y0 y1 (constant S1024x128 .f32 0x00000000#32) (ix2 p c)
      = ∑ k : Fin 2000, y0 (ix2 p k) * y1 (ix2 k c) := by
  rw [Ideal.matmul_constant_zero_apply, ← Equiv.sum_comp (contrEquiv1 dot_S1024x2000_S2000x128_S1024x128_1_0_0_1_n_n 2000 rfl rfl).symm]
  refine Finset.sum_congr rfl fun k _ => ?_
  have hk := contrEquiv1_symm_val dot_S1024x2000_S2000x128_S1024x128_1_0_0_1_n_n 2000 rfl rfl k
  have el : dot_S1024x2000_S2000x128_S1024x128_1_0_0_1_n_n.lhsIdx (ix2 p c) ((contrEquiv1 dot_S1024x2000_S2000x128_S1024x128_1_0_0_1_n_n 2000 rfl rfl).symm k) = ix2 p k := funext fun a => Fin.ext (by
    match a with
    | ⟨0, _⟩ => exact lhs_row _ _
    | ⟨1, _⟩ => exact (dot_S1024x2000_S2000x128_S1024x128_1_0_0_1_n_n.lhsIdx_val_of_single rfl _ _).trans hk)
  have er : dot_S1024x2000_S2000x128_S1024x128_1_0_0_1_n_n.rhsIdx (ix2 p c) ((contrEquiv1 dot_S1024x2000_S2000x128_S1024x128_1_0_0_1_n_n 2000 rfl rfl).symm k) = ix2 k c := funext fun a => Fin.ext (by
    match a with
    | ⟨0, _⟩ => exact (dot_S1024x2000_S2000x128_S1024x128_1_0_0_1_n_n.rhsIdx_val_of_single rfl _ _).trans hk
    | ⟨1, _⟩ => exact rhs_col _ _)
  rw [el, er]

/-- Round to nearest, ties to even, on the extended reals. -/
abbrev rnd (x : EReal) : EReal := Ideal.liftRound Ideal.roundHalfEven x

/-- The second body's hidden activation at row `p`, column `c` of its tile. -/
theorem pay_hidden (v0 v2 : FVec Ideal S1x1 .f32) (v4 : FVec Ideal S1024x2000 .f32) (v13 : FVec Ideal S2000x128 .bf16)
    (v18 : FVec Ideal S128 .f32) (p : Fin 1024) (c : Fin 128) :
    k1_pay1 (F := Ideal) v0 v2 v4 v13 v18 (ix2 p c)
      = max ((∑ k : Fin 2000, min (Ideal.ofBits .f32 0x41700000#32) (max (Ideal.ofBits .f32 0xC1800000#32)
                (rnd (Ideal.div (v4 (ix2 p k)) (v0 (ix2 0 0))))) * v13 (ix2 k c)) * v2 (ix2 0 0) + v18 (ix1 c))
          (Ideal.ofBits .f32 0x00000000#32) := by
  unfold k1_pay1
  simp only [maximumf_apply, addf_apply, mulf_apply, broadcast_apply, matmul]
  rw [tile_dot_apply, shapeCast_self, shapeCast_self, broadcastTo_1b_ab_apply, shapeCast_a_1a_apply]
  have e0 : extractAt ![0, 0] v0 inpos_S1x1_p0_0 = v0 (ix2 0 0) :=
    congrArg v0 (funext fun a => Fin.ext (by match a with | ⟨0, _⟩ => rfl | ⟨1, _⟩ => rfl))
  have e2 : extractAt ![0, 0] v2 inpos_S1x1_p0_0 = v2 (ix2 0 0) :=
    congrArg v2 (funext fun a => Fin.ext (by match a with | ⟨0, _⟩ => rfl | ⟨1, _⟩ => rfl))
  rw [e0, e2]
  rfl

end Cert.KernelIdeal.KPay

end
-- ==== Proof.Consts.lean ====
/-
  The float literals and converted integer bounds the two programs spell, as extended reals.

  The kernel's program writes its clip bounds as float literals; the reference converts integer constants. At the
  extended reals both denote the same numbers, so as rank-0 arrays the converted integers ARE the float literals. The
  reference also divides each weight scale by the literal one, which changes nothing.
-/
import Idealize.ShloMosaic.PureOps.Ideal
import Idealize.ShloMosaic.PureOps.Ideal.Laws
import Idealize.ShloMosaic.Lib.ValueIdx
import Idealize.ShloMosaic.Lib.ValueLayout

noncomputable section

namespace Cert.QConsts

open Idealize.ShloMosaic

abbrev S0 : Shape := ⟨0, ![]⟩

/-! ### The float literals -/

theorem ofBits_15 : Ideal.ofBits .f32 0x41700000#32 = 15 := by
  simp [Ideal.ofBits, Ideal.ieee, -EReal.coe_mul]; norm_num; norm_cast
theorem ofBits_neg16 : Ideal.ofBits .f32 0xC1800000#32 = -16 := by
  simp [Ideal.ofBits, Ideal.ieee, -EReal.coe_mul]; norm_num; norm_cast
theorem ofBits_one : Ideal.ofBits .f32 0x3F800000#32 = 1 := by
  simp [Ideal.ofBits, Ideal.ieee, -EReal.coe_mul]; norm_num
theorem ofBits_neg2 : Ideal.ofBits .f32 0xC0000000#32 = -2 := by
  simp [Ideal.ofBits, Ideal.ieee, -EReal.coe_mul]; norm_num; norm_cast
theorem ofBits_neg128 : Ideal.ofBits .f32 0xC3000000#32 = -128 := by
  simp [Ideal.ofBits, Ideal.ieee, -EReal.coe_mul]; norm_num; norm_cast
theorem ofBits_127 : Ideal.ofBits .f32 0x42FE0000#32 = 127 := by
  simp [Ideal.ofBits, Ideal.ieee, -EReal.coe_mul]; norm_num; norm_cast
theorem ofBits_zero : Ideal.ofBits .f32 0x00000000#32 = 0 := by
  simp [Ideal.ofBits, Ideal.ieee]

/-! ### The converted integers, as numbers: a two's-complement word read signed, then as a real -/

theorem sitofp_neg16_val : (((4294967280#32 : BitVec 32).toInt : ℝ) : EReal) = -16 := by
  have h : (4294967280#32 : BitVec 32).toInt = -16 := by decide
  rw [h]; norm_num; norm_cast
theorem sitofp_15_val : (((15#32 : BitVec 32).toInt : ℝ) : EReal) = 15 := by
  have h : (15#32 : BitVec 32).toInt = 15 := by decide
  rw [h]; norm_num; norm_cast
theorem sitofp_neg2_val : (((4294967294#32 : BitVec 32).toInt : ℝ) : EReal) = -2 := by
  have h : (4294967294#32 : BitVec 32).toInt = -2 := by decide
  rw [h]; norm_num; norm_cast
theorem sitofp_1_val : (((1#32 : BitVec 32).toInt : ℝ) : EReal) = 1 := by
  have h : (1#32 : BitVec 32).toInt = 1 := by decide
  rw [h]; norm_num
theorem sitofp_neg128_val : (((4294967168#32 : BitVec 32).toInt : ℝ) : EReal) = -128 := by
  have h : (4294967168#32 : BitVec 32).toInt = -128 := by decide
  rw [h]; norm_num; norm_cast
theorem sitofp_127_val : (((127#32 : BitVec 32).toInt : ℝ) : EReal) = 127 := by
  have h : (127#32 : BitVec 32).toInt = 127 := by decide
  rw [h]; norm_num; norm_cast
theorem sitofp_0_val : (((0#32 : BitVec 32).toInt : ℝ) : EReal) = 0 := by
  have h : (0#32 : BitVec 32).toInt = 0 := by decide
  rw [h]; norm_num

/-- A converted integer constant and a float literal that denote the same number are the same rank-0 array. -/
theorem sitofp_const (b c : BitVec 32) (v : EReal) (hb : ((b.toInt : ℝ) : EReal) = v) (hc : Ideal.ofBits .f32 c = v) :
    (sitofp .f32 (constantI S0 32 b) : FVec Ideal S0 .f32) = constant S0 .f32 c := by
  funext i
  show ((b.toInt : ℝ) : EReal) = Ideal.ofBits .f32 c
  rw [hb, hc]

theorem sitofp_neg16 : (sitofp .f32 (constantI S0 32 4294967280#32) : FVec Ideal S0 .f32) = constant S0 .f32 0xC1800000#32 :=
  sitofp_const _ _ _ sitofp_neg16_val ofBits_neg16
theorem sitofp_15 : (sitofp .f32 (constantI S0 32 15#32) : FVec Ideal S0 .f32) = constant S0 .f32 0x41700000#32 :=
  sitofp_const _ _ _ sitofp_15_val ofBits_15
theorem sitofp_neg2 : (sitofp .f32 (constantI S0 32 4294967294#32) : FVec Ideal S0 .f32) = constant S0 .f32 0xC0000000#32 :=
  sitofp_const _ _ _ sitofp_neg2_val ofBits_neg2
theorem sitofp_1 : (sitofp .f32 (constantI S0 32 1#32) : FVec Ideal S0 .f32) = constant S0 .f32 0x3F800000#32 :=
  sitofp_const _ _ _ sitofp_1_val ofBits_one
theorem sitofp_neg128 : (sitofp .f32 (constantI S0 32 4294967168#32) : FVec Ideal S0 .f32) = constant S0 .f32 0xC3000000#32 :=
  sitofp_const _ _ _ sitofp_neg128_val ofBits_neg128
theorem sitofp_127 : (sitofp .f32 (constantI S0 32 127#32) : FVec Ideal S0 .f32) = constant S0 .f32 0x42FE0000#32 :=
  sitofp_const _ _ _ sitofp_127_val ofBits_127
theorem sitofp_0 : (sitofp .f32 (constantI S0 32 0#32) : FVec Ideal S0 .f32) = constant S0 .f32 0x00000000#32 :=
  sitofp_const _ _ _ sitofp_0_val ofBits_zero

/-- A quotient by the literal one, on rank-0 arrays. -/
theorem divf_one (X : FVec Ideal S0 .f32) : Host.divf X (constant S0 .f32 0x3F800000#32) = X := by
  funext i
  show Ideal.div (X i) (Ideal.ofBits .f32 0x3F800000#32) = X i
  rw [ofBits_one, ← EReal.coe_one, Ideal.div_coe one_ne_zero]
  simp

end Cert.QConsts

end
-- ==== Proof.KHostA.lean ====
/-
  The host operations between the two kernel regions, against the reference's stages.

  Between the regions the kernel's program turns the maximum of the first region's tile maxima into the activation
  scale, quantises the first layer's weights and bias exactly as the reference does, pads them from 100 to 128 units
  with zeros, transposes the weights, and reshapes the two scales to 1×1 arrays. Whenever the maximum of the tile
  maxima is the reference's maximum of `|x|`, each buffer the second region reads is the corresponding stage of the
  reference, re-laid. The two texts differ only in the spelling of the clip bounds and in the reference's quotient of
  the weight scale by one.
-/
import proofs.«123791_j33036888440887_2_alg».proof.Proof.Gen.KernelIdeal.Launch
import proofs.«123791_j33036888440887_2_alg».proof.Proof.Gen.ReferenceIdeal.Read
import proofs.«123791_j33036888440887_2_alg».proof.Proof.Consts
import Idealize.ShloMosaic.Lib.StableHlo.Run

set_option maxRecDepth 16384

noncomputable section

namespace Cert.KernelIdeal.KHostA

open Idealize.ShloMosaic Idealize.ShloMosaic.TcCoe Idealize.SL.Sem Idealize.ShloMosaic.StableHlo
open Cert.KernelIdeal Cert.KernelIdeal.Gen

/-- The buffer contents at the second region's entry, from contents `V` at the first region's exit. -/
abbrev V14of (V : Valuation τ sig (Elt Ideal)) : Valuation τ sig (Elt Ideal) :=
  StableHlo.after hostOps1_12 (StableHlo.after hostOps1_11 (StableHlo.after hostOps1_10 (StableHlo.after hostOps1_9
    (StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
    (StableHlo.after hostOps1 V))))))))))))

section
variable (V : Valuation τ sig (Elt Ideal))
  (x0 : (⟨Cert.ReferenceIdeal.S16384x2000, .f32⟩ : BufTy).Contents (Elt Ideal))
  (x1 : (⟨Cert.ReferenceIdeal.S100x2000, .f32⟩ : BufTy).Contents (Elt Ideal))
  (x2 : (⟨Cert.ReferenceIdeal.S100, .f32⟩ : BufTy).Contents (Elt Ideal))
  (hM : (Host.reduce (FloatOps.maximumf (F := Ideal) (φ := .f32)) (V (Proc.devRef .tc main_v0)) (constant (F := Ideal) S_ .f32 0xFF800000#32) reducesTo_S16x1x128_S_d0_1_2 h_S_ : (⟨S_, .f32⟩ : BufTy).Contents (Elt Ideal))
          = Cert.ReferenceIdeal.Read.val_main_v1 (F := Ideal) x0)
  (h0 : V (Proc.devRef .tc main_arg0) = x0) (h1 : V (Proc.devRef .tc main_arg1) = x1) (h2 : V (Proc.devRef .tc main_arg2) = x2)
include hM h0 h1 h2

set_option maxHeartbeats 4000000 in
/-- The activation scale, as a 1×1 array. -/
theorem scale_buf : V14of V (Proc.devRef .tc main_v20) = shapeCast S1x1 (Cert.ReferenceIdeal.Read.val_main_v2 (F := Ideal) x0) shapeCasts_S_S1x1 := by
  after_results_simp
  simp only [hM, h0, h1, h2, id]
  simp only [Cert.ReferenceIdeal.Read.val_main_v0, Cert.ReferenceIdeal.Read.val_main_cst, Cert.ReferenceIdeal.Read.val_main_v1, Cert.ReferenceIdeal.Read.val_main_cst_0, Cert.ReferenceIdeal.Read.val_main_v2, Cert.ReferenceIdeal.Read.val_main_v3, Cert.ReferenceIdeal.Read.val_main_v4, Cert.ReferenceIdeal.Read.val_main_v5, Cert.ReferenceIdeal.Read.val_main_c, Cert.ReferenceIdeal.Read.val_main_c_1, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_v6, Cert.ReferenceIdeal.Read.val_main_v7, Cert.ReferenceIdeal.Read.val_main_v8, Cert.ReferenceIdeal.Read.val_main_v9, Cert.ReferenceIdeal.Read.val_main_cst_2, Cert.ReferenceIdeal.Read.val_main_v10, Cert.ReferenceIdeal.Read.val_main_cst_3, Cert.ReferenceIdeal.Read.val_main_v11, Cert.ReferenceIdeal.Read.val_main_v12, Cert.ReferenceIdeal.Read.val_main_v13, Cert.ReferenceIdeal.Read.val_main_v14, Cert.ReferenceIdeal.Read.val_main_c_4, Cert.ReferenceIdeal.Read.val_main_c_5, Cert.ReferenceIdeal.Read.val_main_call3_v0, Cert.ReferenceIdeal.Read.val_main_call3_v1, Cert.ReferenceIdeal.Read.val_main_call3_v2, Cert.ReferenceIdeal.Read.val_main_call3_v3, Cert.ReferenceIdeal.Read.val_main_call3_v4, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_6, Cert.ReferenceIdeal.Read.val_main_c_7, Cert.ReferenceIdeal.Read.val_main_call5_v0, Cert.ReferenceIdeal.Read.val_main_call5_v1, Cert.ReferenceIdeal.Read.val_main_call5_v2, Cert.ReferenceIdeal.Read.val_main_call5_v3, Cert.ReferenceIdeal.Read.val_main_call5_v4, Cert.ReferenceIdeal.Read.val_main_v20,
    Cert.QConsts.sitofp_neg2, Cert.QConsts.sitofp_1, Cert.QConsts.divf_one]
  rfl

set_option maxHeartbeats 4000000 in
/-- The bias scale, as a 1×1 array. -/
theorem bscale_buf : V14of V (Proc.devRef .tc main_v21) = shapeCast S1x1 (Cert.ReferenceIdeal.Read.val_main_v16 (F := Ideal) x0 x1) shapeCasts_S_S1x1 := by
  after_results_simp
  simp only [hM, h0, h1, h2, id]
  simp only [Cert.ReferenceIdeal.Read.val_main_v0, Cert.ReferenceIdeal.Read.val_main_cst, Cert.ReferenceIdeal.Read.val_main_v1, Cert.ReferenceIdeal.Read.val_main_cst_0, Cert.ReferenceIdeal.Read.val_main_v2, Cert.ReferenceIdeal.Read.val_main_v3, Cert.ReferenceIdeal.Read.val_main_v4, Cert.ReferenceIdeal.Read.val_main_v5, Cert.ReferenceIdeal.Read.val_main_c, Cert.ReferenceIdeal.Read.val_main_c_1, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_v6, Cert.ReferenceIdeal.Read.val_main_v7, Cert.ReferenceIdeal.Read.val_main_v8, Cert.ReferenceIdeal.Read.val_main_v9, Cert.ReferenceIdeal.Read.val_main_cst_2, Cert.ReferenceIdeal.Read.val_main_v10, Cert.ReferenceIdeal.Read.val_main_cst_3, Cert.ReferenceIdeal.Read.val_main_v11, Cert.ReferenceIdeal.Read.val_main_v12, Cert.ReferenceIdeal.Read.val_main_v13, Cert.ReferenceIdeal.Read.val_main_v14, Cert.ReferenceIdeal.Read.val_main_c_4, Cert.ReferenceIdeal.Read.val_main_c_5, Cert.ReferenceIdeal.Read.val_main_call3_v0, Cert.ReferenceIdeal.Read.val_main_call3_v1, Cert.ReferenceIdeal.Read.val_main_call3_v2, Cert.ReferenceIdeal.Read.val_main_call3_v3, Cert.ReferenceIdeal.Read.val_main_call3_v4, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_6, Cert.ReferenceIdeal.Read.val_main_c_7, Cert.ReferenceIdeal.Read.val_main_call5_v0, Cert.ReferenceIdeal.Read.val_main_call5_v1, Cert.ReferenceIdeal.Read.val_main_call5_v2, Cert.ReferenceIdeal.Read.val_main_call5_v3, Cert.ReferenceIdeal.Read.val_main_call5_v4, Cert.ReferenceIdeal.Read.val_main_v20,
    Cert.QConsts.sitofp_neg2, Cert.QConsts.sitofp_1, Cert.QConsts.divf_one]
  rfl

/-! ### Contents at a value's type and at its buffer's type

A module-local function's operations carry each value through its buffer's own type and back. For a literal buffer the
two types are the same, so each passage is the identity; stated over an arbitrary payload, once per buffer that a plain
operation and a typed one share. -/

omit hM h0 h1 h2 in
/-- Contents moved to a buffer's own type and back are the contents. -/
theorem ofBuf_toBuf {T : BufTy} (x : StableHlo.TRef sig T) (v : T.Contents (Elt Ideal)) : x.ofBuf (x.toBuf v) = v := by
  obtain ⟨r, rfl, _, _⟩ := x
  rfl

omit hM h0 h1 h2 in
theorem toBuf_v9 (e1 : main_v9.ty = ⟨S128x2000, .f32⟩) (e2 : main_v9.space ≠ .host) (e3 : main_v9.isScoped = false)
    (v : (⟨S128x2000, .f32⟩ : BufTy).Contents (Elt Ideal)) :
    (StableHlo.TRef.of main_v9 e1 e2 e3 : StableHlo.TRef sig ⟨S128x2000, .f32⟩).toBuf v = v := rfl
omit hM h0 h1 h2 in
theorem ofBuf_cst_2 (e1 : main_cst_2.ty = ⟨S_, .f32⟩) (e2 : main_cst_2.space ≠ .host) (e3 : main_cst_2.isScoped = false)
    (v : (⟨S_, .f32⟩ : BufTy).Contents (Elt Ideal)) :
    (StableHlo.TRef.of main_cst_2 e1 e2 e3 : StableHlo.TRef sig ⟨S_, .f32⟩).ofBuf v = v := rfl
omit hM h0 h1 h2 in
theorem ofBuf_cst_3 (e1 : main_cst_3.ty = ⟨S_, .f32⟩) (e2 : main_cst_3.space ≠ .host) (e3 : main_cst_3.isScoped = false)
    (v : (⟨S_, .f32⟩ : BufTy).Contents (Elt Ideal)) :
    (StableHlo.TRef.of main_cst_3 e1 e2 e3 : StableHlo.TRef sig ⟨S_, .f32⟩).ofBuf v = v := rfl
omit hM h0 h1 h2 in
theorem ofBuf_v6 (e1 : main_v6.ty = ⟨S100x2000, .f32⟩) (e2 : main_v6.space ≠ .host) (e3 : main_v6.isScoped = false)
    (v : (⟨S100x2000, .f32⟩ : BufTy).Contents (Elt Ideal)) :
    (StableHlo.TRef.of main_v6 e1 e2 e3 : StableHlo.TRef sig ⟨S100x2000, .f32⟩).ofBuf v = v := rfl
omit hM h0 h1 h2 in
theorem ofBuf_c (e1 : main_c.ty = ⟨S_, .i32⟩) (e2 : main_c.space ≠ .host) (e3 : main_c.isScoped = false)
    (v : (⟨S_, .i32⟩ : BufTy).Contents (Elt Ideal)) :
    (StableHlo.TRef.of main_c e1 e2 e3 : StableHlo.TRef sig ⟨S_, .i32⟩).ofBuf v = v := rfl

omit hM h0 h1 h2 in
theorem toBuf_v19 (e1 : main_v19.ty = ⟨S128, .f32⟩) (e2 : main_v19.space ≠ .host) (e3 : main_v19.isScoped = false)
    (v : (⟨S128, .f32⟩ : BufTy).Contents (Elt Ideal)) :
    (StableHlo.TRef.of main_v19 e1 e2 e3 : StableHlo.TRef sig ⟨S128, .f32⟩).toBuf v = v := rfl
omit hM h0 h1 h2 in
theorem toBuf_v16 (e1 : main_v16.ty = ⟨S100, .f32⟩) (e2 : main_v16.space ≠ .host) (e3 : main_v16.isScoped = false)
    (v : (⟨S100, .f32⟩ : BufTy).Contents (Elt Ideal)) :
    (StableHlo.TRef.of main_v16 e1 e2 e3 : StableHlo.TRef sig ⟨S100, .f32⟩).toBuf v = v := rfl
omit hM h0 h1 h2 in
theorem ofBuf_v18 (e1 : main_v18.ty = ⟨S100, .f32⟩) (e2 : main_v18.space ≠ .host) (e3 : main_v18.isScoped = false)
    (v : (⟨S100, .f32⟩ : BufTy).Contents (Elt Ideal)) :
    (StableHlo.TRef.of main_v18 e1 e2 e3 : StableHlo.TRef sig ⟨S100, .f32⟩).ofBuf v = v := rfl
omit hM h0 h1 h2 in
theorem ofBuf_v14 (e1 : main_v14.ty = ⟨S100, .f32⟩) (e2 : main_v14.space ≠ .host) (e3 : main_v14.isScoped = false)
    (v : (⟨S100, .f32⟩ : BufTy).Contents (Elt Ideal)) :
    (StableHlo.TRef.of main_v14 e1 e2 e3 : StableHlo.TRef sig ⟨S100, .f32⟩).ofBuf v = v := rfl
omit hM h0 h1 h2 in
theorem ofBuf_cst_4 (e1 : main_cst_4.ty = ⟨S_, .f32⟩) (e2 : main_cst_4.space ≠ .host) (e3 : main_cst_4.isScoped = false)
    (v : (⟨S_, .f32⟩ : BufTy).Contents (Elt Ideal)) :
    (StableHlo.TRef.of main_cst_4 e1 e2 e3 : StableHlo.TRef sig ⟨S_, .f32⟩).ofBuf v = v := rfl
omit hM h0 h1 h2 in
theorem ofBuf_cst_5 (e1 : main_cst_5.ty = ⟨S_, .f32⟩) (e2 : main_cst_5.space ≠ .host) (e3 : main_cst_5.isScoped = false)
    (v : (⟨S_, .f32⟩ : BufTy).Contents (Elt Ideal)) :
    (StableHlo.TRef.of main_cst_5 e1 e2 e3 : StableHlo.TRef sig ⟨S_, .f32⟩).ofBuf v = v := rfl
omit hM h0 h1 h2 in
theorem ofBuf_c_6 (e1 : main_c_6.ty = ⟨S_, .i32⟩) (e2 : main_c_6.space ≠ .host) (e3 : main_c_6.isScoped = false)
    (v : (⟨S_, .i32⟩ : BufTy).Contents (Elt Ideal)) :
    (StableHlo.TRef.of main_c_6 e1 e2 e3 : StableHlo.TRef sig ⟨S_, .i32⟩).ofBuf v = v := rfl

set_option maxHeartbeats 4000000 in
/-- The quantised weights, padded to 128 units with zeros and transposed. -/
theorem weights_buf : V14of V (Proc.devRef .tc main_v11)
    = transpose S2000x128 [1, 0] (truncf .bf16 (pad S128x2000 ![0, 0] ![28, 0] ![0, 0] (Cert.ReferenceIdeal.Read.val_main_v15 (F := Ideal) x1)
        (sitofp (F := Ideal) .f32 (constantI S_ 32 0#32)) pads_S100x2000_S128x2000_0280_000 h_S_) bitsLt_bf16_f32) transposes_S128x2000_S2000x128_1_0 := by
  after_results_simp
  simp only [ofBuf_toBuf, toBuf_v9, ofBuf_cst_2, ofBuf_cst_3, ofBuf_v6, ofBuf_c]
  simp only [hM, h0, h1, h2, id]
  simp only [Cert.ReferenceIdeal.Read.val_main_v0, Cert.ReferenceIdeal.Read.val_main_cst, Cert.ReferenceIdeal.Read.val_main_v1, Cert.ReferenceIdeal.Read.val_main_cst_0, Cert.ReferenceIdeal.Read.val_main_v2, Cert.ReferenceIdeal.Read.val_main_v3, Cert.ReferenceIdeal.Read.val_main_v4, Cert.ReferenceIdeal.Read.val_main_v5, Cert.ReferenceIdeal.Read.val_main_c, Cert.ReferenceIdeal.Read.val_main_c_1, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_v6, Cert.ReferenceIdeal.Read.val_main_v7, Cert.ReferenceIdeal.Read.val_main_v8, Cert.ReferenceIdeal.Read.val_main_v9, Cert.ReferenceIdeal.Read.val_main_cst_2, Cert.ReferenceIdeal.Read.val_main_v10, Cert.ReferenceIdeal.Read.val_main_cst_3, Cert.ReferenceIdeal.Read.val_main_v11, Cert.ReferenceIdeal.Read.val_main_v12, Cert.ReferenceIdeal.Read.val_main_v13, Cert.ReferenceIdeal.Read.val_main_v14, Cert.ReferenceIdeal.Read.val_main_c_4, Cert.ReferenceIdeal.Read.val_main_c_5, Cert.ReferenceIdeal.Read.val_main_call3_v0, Cert.ReferenceIdeal.Read.val_main_call3_v1, Cert.ReferenceIdeal.Read.val_main_call3_v2, Cert.ReferenceIdeal.Read.val_main_call3_v3, Cert.ReferenceIdeal.Read.val_main_call3_v4, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_6, Cert.ReferenceIdeal.Read.val_main_c_7, Cert.ReferenceIdeal.Read.val_main_call5_v0, Cert.ReferenceIdeal.Read.val_main_call5_v1, Cert.ReferenceIdeal.Read.val_main_call5_v2, Cert.ReferenceIdeal.Read.val_main_call5_v3, Cert.ReferenceIdeal.Read.val_main_call5_v4, Cert.ReferenceIdeal.Read.val_main_v20,
    Cert.QConsts.sitofp_neg2, Cert.QConsts.sitofp_1, Cert.QConsts.divf_one]

set_option maxHeartbeats 4000000 in
/-- The quantised bias times its scale, padded to 128 units with zeros. -/
theorem bias_buf : V14of V (Proc.devRef .tc main_v19)
    = pad S128 ![0] ![28] ![0] (mulf (Cert.ReferenceIdeal.Read.val_main_v20 (F := Ideal) x0 x1 x2) (broadcastInDim S100 ![] bcast_S_S100 (Cert.ReferenceIdeal.Read.val_main_v16 (F := Ideal) x0 x1)))
        (sitofp (F := Ideal) .f32 (constantI S_ 32 0#32)) pads_S100_S128_0280 h_S_ := by
  after_results_simp
  simp only [ofBuf_toBuf, toBuf_v19, toBuf_v16, ofBuf_v18, ofBuf_v14, ofBuf_cst_4, ofBuf_cst_5, ofBuf_c_6]
  simp only [hM, h0, h1, h2, id]
  simp only [Cert.ReferenceIdeal.Read.val_main_v0, Cert.ReferenceIdeal.Read.val_main_cst, Cert.ReferenceIdeal.Read.val_main_v1, Cert.ReferenceIdeal.Read.val_main_cst_0, Cert.ReferenceIdeal.Read.val_main_v2, Cert.ReferenceIdeal.Read.val_main_v3, Cert.ReferenceIdeal.Read.val_main_v4, Cert.ReferenceIdeal.Read.val_main_v5, Cert.ReferenceIdeal.Read.val_main_c, Cert.ReferenceIdeal.Read.val_main_c_1, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_v6, Cert.ReferenceIdeal.Read.val_main_v7, Cert.ReferenceIdeal.Read.val_main_v8, Cert.ReferenceIdeal.Read.val_main_v9, Cert.ReferenceIdeal.Read.val_main_cst_2, Cert.ReferenceIdeal.Read.val_main_v10, Cert.ReferenceIdeal.Read.val_main_cst_3, Cert.ReferenceIdeal.Read.val_main_v11, Cert.ReferenceIdeal.Read.val_main_v12, Cert.ReferenceIdeal.Read.val_main_v13, Cert.ReferenceIdeal.Read.val_main_v14, Cert.ReferenceIdeal.Read.val_main_c_4, Cert.ReferenceIdeal.Read.val_main_c_5, Cert.ReferenceIdeal.Read.val_main_call3_v0, Cert.ReferenceIdeal.Read.val_main_call3_v1, Cert.ReferenceIdeal.Read.val_main_call3_v2, Cert.ReferenceIdeal.Read.val_main_call3_v3, Cert.ReferenceIdeal.Read.val_main_call3_v4, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_c_6, Cert.ReferenceIdeal.Read.val_main_c_7, Cert.ReferenceIdeal.Read.val_main_call5_v0, Cert.ReferenceIdeal.Read.val_main_call5_v1, Cert.ReferenceIdeal.Read.val_main_call5_v2, Cert.ReferenceIdeal.Read.val_main_call5_v3, Cert.ReferenceIdeal.Read.val_main_call5_v4, Cert.ReferenceIdeal.Read.val_main_v20,
    Cert.QConsts.sitofp_neg2, Cert.QConsts.sitofp_1, Cert.QConsts.divf_one]

omit hM h1 h2 in
/-- The activations pass through untouched. -/
theorem acts_buf : V14of V (Proc.devRef .tc main_arg0) = x0 := by
  after_results_simp
  exact h0

end

/-- The later arguments pass through the stretch untouched. -/
theorem keep_arg3 (V : Valuation τ sig (Elt Ideal)) : V14of V (Proc.devRef .tc main_arg3) = V (Proc.devRef .tc main_arg3) := by
  after_results_simp
theorem keep_arg4 (V : Valuation τ sig (Elt Ideal)) : V14of V (Proc.devRef .tc main_arg4) = V (Proc.devRef .tc main_arg4) := by
  after_results_simp
theorem keep_arg5 (V : Valuation τ sig (Elt Ideal)) : V14of V (Proc.devRef .tc main_arg5) = V (Proc.devRef .tc main_arg5) := by
  after_results_simp
theorem keep_arg6 (V : Valuation τ sig (Elt Ideal)) : V14of V (Proc.devRef .tc main_arg6) = V (Proc.devRef .tc main_arg6) := by
  after_results_simp

end Cert.KernelIdeal.KHostA

end
-- ==== Proof.KTail.lean ====
/-
  The host operations after the second kernel region, against the reference's tail.

  After the second region the kernel's program slices the hidden activations out of the padded tile array, takes the
  maximum of the tiles' maxima, and from there applies operation for operation what the reference applies to its own
  hidden activations and their maximum: the 8-bit quantisation, batch normalisation, the second quantised layer, the
  ReLU and the last quantisation. The two texts differ only in how they spell the clip bounds (float literals against
  converted integers) and in the reference's quotient of the weight scale by one. So whenever the sliced activations
  are the reference's and the maximum of the tiles' maxima is the reference's maximum, the results agree.
-/
import proofs.«123791_j33036888440887_2_alg».proof.Proof.Gen.KernelIdeal.Launch
import proofs.«123791_j33036888440887_2_alg».proof.Proof.Gen.ReferenceIdeal.Read
import proofs.«123791_j33036888440887_2_alg».proof.Proof.Consts
import Idealize.ShloMosaic.Lib.StableHlo.Run

set_option maxRecDepth 16384

noncomputable section

namespace Cert.KernelIdeal.KTail

open Idealize.ShloMosaic Idealize.ShloMosaic.TcCoe Idealize.SL.Sem Idealize.ShloMosaic.StableHlo
open Cert.KernelIdeal Cert.KernelIdeal.Gen

set_option maxHeartbeats 40000000 in
/-- From any buffer contents `V` at the second region's exit whose sliced activations and maximum of maxima are the
    reference's, the nineteen stretches of host operations leave the reference's result in the result buffer. -/
theorem tail_eq (V : Valuation τ sig (Elt Ideal))
    (x0 : (⟨Cert.ReferenceIdeal.S16384x2000, .f32⟩ : BufTy).Contents (Elt Ideal))
    (x1 : (⟨Cert.ReferenceIdeal.S100x2000, .f32⟩ : BufTy).Contents (Elt Ideal))
    (x2 : (⟨Cert.ReferenceIdeal.S100, .f32⟩ : BufTy).Contents (Elt Ideal))
    (x3 : (⟨Cert.ReferenceIdeal.S2x100, .f32⟩ : BufTy).Contents (Elt Ideal))
    (x4 : (⟨Cert.ReferenceIdeal.S2, .f32⟩ : BufTy).Contents (Elt Ideal))
    (x5 x6 : (⟨Cert.ReferenceIdeal.S100, .f32⟩ : BufTy).Contents (Elt Ideal))
    (hH : extractStridedSlice S16384x100 ![0, 0] (V (Proc.devRef .tc main_v22_0)) slices_S16384x128_S16384x100_0_0
            = Cert.ReferenceIdeal.Read.val_main_v30 (F := Ideal) x0 x1 x2)
    (hM : (Host.reduce (FloatOps.maximumf (F := Ideal) (φ := .f32)) (V (Proc.devRef .tc main_v22_1)) (constant (F := Ideal) S_ .f32 0xFF800000#32) reducesTo_S16x1x128_S_d0_1_2 h_S_ : (⟨S_, .f32⟩ : BufTy).Contents (Elt Ideal))
            = Cert.ReferenceIdeal.Read.val_main_v32 (F := Ideal) x0 x1 x2)
    (h3 : V (Proc.devRef .tc main_arg3) = x3) (h4 : V (Proc.devRef .tc main_arg4) = x4)
    (h5 : V (Proc.devRef .tc main_arg5) = x5) (h6 : V (Proc.devRef .tc main_arg6) = x6) :
    StableHlo.after hostOps2_18 (StableHlo.after hostOps2_17 (StableHlo.after hostOps2_16 (StableHlo.after hostOps2_15
      (StableHlo.after hostOps2_14 (StableHlo.after hostOps2_13 (StableHlo.after hostOps2_12 (StableHlo.after hostOps2_11
      (StableHlo.after hostOps2_10 (StableHlo.after hostOps2_9 (StableHlo.after hostOps2_8 (StableHlo.after hostOps2_7
      (StableHlo.after hostOps2_6 (StableHlo.after hostOps2_5 (StableHlo.after hostOps2_4 (StableHlo.after hostOps2_3
      (StableHlo.after hostOps2_2 (StableHlo.after hostOps2_1 (StableHlo.after hostOps2 V))))))))))))))))))
        (Proc.devRef .tc main_v86)
      = Cert.ReferenceIdeal.Read.val_main_v95 (F := Ideal) x0 x1 x2 x3 x4 x5 x6 := by
  after_results_simp
  simp only [hH, hM, h3, h4, h5, h6, id]
  simp only [Cert.ReferenceIdeal.Read.val_main_cst_9, Cert.ReferenceIdeal.Read.val_main_v33, Cert.ReferenceIdeal.Read.val_main_v34, Cert.ReferenceIdeal.Read.val_main_v35, Cert.ReferenceIdeal.Read.val_main_v36, Cert.ReferenceIdeal.Read.val_main_c_10, Cert.ReferenceIdeal.Read.val_main_c_11, Cert.ReferenceIdeal.Read.val_main_call8_v0, Cert.ReferenceIdeal.Read.val_main_call8_v1, Cert.ReferenceIdeal.Read.val_main_call8_v2, Cert.ReferenceIdeal.Read.val_main_call8_v3, Cert.ReferenceIdeal.Read.val_main_call8_v4, Cert.ReferenceIdeal.Read.val_main_v37, Cert.ReferenceIdeal.Read.val_main_v38, Cert.ReferenceIdeal.Read.val_main_v39, Cert.ReferenceIdeal.Read.val_main_cst_12, Cert.ReferenceIdeal.Read.val_main_v40, Cert.ReferenceIdeal.Read.val_main_cst_13, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_cst_14, Cert.ReferenceIdeal.Read.val_main_v47, Cert.ReferenceIdeal.Read.val_main_cst_15, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_cst_16, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_cst_17, Cert.ReferenceIdeal.Read.val_main_v66, Cert.ReferenceIdeal.Read.val_main_cst_18, Cert.ReferenceIdeal.Read.val_main_v67, Cert.ReferenceIdeal.Read.val_main_v68, Cert.ReferenceIdeal.Read.val_main_v69, Cert.ReferenceIdeal.Read.val_main_v70, Cert.ReferenceIdeal.Read.val_main_c_19, Cert.ReferenceIdeal.Read.val_main_c_20, Cert.ReferenceIdeal.Read.val_main_call10_v0, Cert.ReferenceIdeal.Read.val_main_call10_v1, Cert.ReferenceIdeal.Read.val_main_call10_v2, Cert.ReferenceIdeal.Read.val_main_call10_v3, Cert.ReferenceIdeal.Read.val_main_call10_v4, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_c_21, Cert.ReferenceIdeal.Read.val_main_c_22, Cert.ReferenceIdeal.Read.val_main_call12_v0, Cert.ReferenceIdeal.Read.val_main_call12_v1, Cert.ReferenceIdeal.Read.val_main_call12_v2, Cert.ReferenceIdeal.Read.val_main_call12_v3, Cert.ReferenceIdeal.Read.val_main_call12_v4, Cert.ReferenceIdeal.Read.val_main_v76, Cert.ReferenceIdeal.Read.val_main_v77, Cert.ReferenceIdeal.Read.val_main_v78, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_call13_cst, Cert.ReferenceIdeal.Read.val_main_call13_v0, Cert.ReferenceIdeal.Read.val_main_v86, Cert.ReferenceIdeal.Read.val_main_v87, Cert.ReferenceIdeal.Read.val_main_cst_23, Cert.ReferenceIdeal.Read.val_main_v88, Cert.ReferenceIdeal.Read.val_main_cst_24, Cert.ReferenceIdeal.Read.val_main_v89, Cert.ReferenceIdeal.Read.val_main_v90, Cert.ReferenceIdeal.Read.val_main_v91, Cert.ReferenceIdeal.Read.val_main_v92, Cert.ReferenceIdeal.Read.val_main_c_25, Cert.ReferenceIdeal.Read.val_main_c_26, Cert.ReferenceIdeal.Read.val_main_call15_v0, Cert.ReferenceIdeal.Read.val_main_call15_v1, Cert.ReferenceIdeal.Read.val_main_call15_v2, Cert.ReferenceIdeal.Read.val_main_call15_v3, Cert.ReferenceIdeal.Read.val_main_call15_v4, Cert.ReferenceIdeal.Read.val_main_v93, Cert.ReferenceIdeal.Read.val_main_v94, Cert.ReferenceIdeal.Read.val_main_v95,
    Cert.QConsts.sitofp_neg2, Cert.QConsts.sitofp_1, Cert.QConsts.sitofp_neg128, Cert.QConsts.sitofp_127, Cert.QConsts.divf_one]
  rfl

end Cert.KernelIdeal.KTail

end
-- ==== Proof.RefSide.lean ====
/-
  The reference's first quantised layer, read at an entry.

  With `s = max|x| / 15` the activation scale and `w = max|W| / 1` the weight scale, the reference's hidden
  activation at row `r` and unit `c` is
    `relu(((∑ₖ ((qₖ·s)/s)·Wq[c,k]) + bq[c])·(w·s))`,  `qₖ = clip(round(x[r,k]/s), -16, 15)`,
  where `Wq` and `bq` are the clipped, rounded weights and bias (kept as the reference's own stages). The two
  maxima it takes — of `|x|` and of the hidden activations' absolute values — are maxima of finite families, and
  the scales are nonnegative and finite when the inputs are real numbers.
-/
import proofs.«123791_j33036888440887_2_alg».proof.Proof.Gen.ReferenceIdeal.Read
import proofs.«123791_j33036888440887_2_alg».proof.Proof.LibGmax
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Read Cert.Gmax

/-- Round to nearest, ties to even, on the extended reals. -/
abbrev rnd (x : EReal) : EReal := Ideal.liftRound Ideal.roundHalfEven x

/-- The 5-bit quantised activation: `clip(round(x/s), -16, 15)`. -/
def qact (x s : EReal) : EReal := min 15 (max (-16) (rnd (Ideal.div x s)))

variable (x0 : (⟨S16384x2000, .f32⟩ : BufTy).Contents (Elt Ideal)) (x1 : (⟨S100x2000, .f32⟩ : BufTy).Contents (Elt Ideal))
  (x2 : (⟨S100, .f32⟩ : BufTy).Contents (Elt Ideal))

/-- The pattern of `15.0`. -/
theorem ofBits_15 : Ideal.ofBits .f32 0x41700000#32 = ((15 : ℝ) : EReal) := by
  simp [Ideal.ofBits, Ideal.ieee, -EReal.coe_mul]; norm_num

/-- The pattern of `1.0`. -/
theorem ofBits_1 : Ideal.ofBits .f32 0x3F800000#32 = ((1 : ℝ) : EReal) := by
  simp [Ideal.ofBits, Ideal.ieee, -EReal.coe_mul]; norm_num

/-- A nonnegative extended real divided by a positive real is nonnegative. -/
theorem div_coe_nonneg {g : EReal} {c : ℝ} (hc : 0 < c) (hg : 0 ≤ g) : 0 ≤ Ideal.div g (c : EReal) := by
  rw [Ideal.div_coe hc.ne']
  exact mul_nonneg hg (EReal.coe_nonneg.2 (by positivity))

/-- A nonnegative extended real below `∞` divided by a positive real is below `∞`. -/
theorem div_coe_ne_top {g : EReal} {c : ℝ} (hc : 0 < c) (hg0 : 0 ≤ g) (hg : g ≠ ⊤) : Ideal.div g (c : EReal) ≠ ⊤ := by
  rw [Ideal.div_coe hc.ne']
  lift g to ℝ using ⟨hg, ne_bot_of_le_ne_bot EReal.zero_ne_bot hg0⟩
  rw [← EReal.coe_mul]
  exact EReal.coe_ne_top _

/-- The reference's global maximum of `|W|`. -/
theorem v10_eq (j : S_.Idx) : val_main_v10 (F := Ideal) x1 j = gmax (fun i : S100x2000.Idx => max (x1 i) (-(x1 i))) := by
  unfold val_main_v10
  exact hostReduce_max_scalar (val_main_v9 (F := Ideal) x1) (val_main_cst_2 (F := Ideal)) Gen.reducesTo_S100x2000_S_d0_1 Gen.h_S_
    (fun b => b.elim0) ((val_main_cst_2_apply _).trans ofBits_neg_inf) j

/-- The reference's global maximum of `|x|`. -/
theorem v1_eq (j : S_.Idx) : val_main_v1 (F := Ideal) x0 j = gmax (fun i : S16384x2000.Idx => max (x0 i) (-(x0 i))) := by
  unfold val_main_v1
  exact hostReduce_max_scalar (val_main_v0 (F := Ideal) x0) (val_main_cst (F := Ideal)) Gen.reducesTo_S16384x2000_S_d0_1 Gen.h_S_
    (fun b => b.elim0) ((val_main_cst_apply _).trans ofBits_neg_inf) j

/-- The activation scale is nonnegative and, for real inputs, finite. -/
theorem s_nonneg : 0 ≤ val_main_v2 (F := Ideal) x0 ix0 := by
  haveI : Nonempty S16384x2000.Idx := ⟨ix2 (⟨0, by decide⟩ : Fin 16384) (⟨0, by decide⟩ : Fin 2000)⟩
  rw [val_main_v2_apply, val_main_cst_0_apply, v1_eq, Ideal.hostDivf_def, Ideal.ofBits_def, ofBits_15]
  exact div_coe_nonneg (by norm_num) (gmax_nonneg _ fun i => abs_nonneg _)
theorem s_ne_top (h0 : ∀ i, x0 i ≠ ⊤ ∧ x0 i ≠ ⊥) : val_main_v2 (F := Ideal) x0 ix0 ≠ ⊤ := by
  haveI : Nonempty S16384x2000.Idx := ⟨ix2 (⟨0, by decide⟩ : Fin 16384) (⟨0, by decide⟩ : Fin 2000)⟩
  rw [val_main_v2_apply, val_main_cst_0_apply, v1_eq, Ideal.hostDivf_def, Ideal.ofBits_def, ofBits_15]
  exact div_coe_ne_top (by norm_num) (gmax_nonneg _ fun i => abs_nonneg _)
    (gmax_ne_top _ fun i => abs_ne_top _ (h0 i).1 (h0 i).2)

/-- The weight scale is nonnegative and, for real weights, finite. -/
theorem w_nonneg : 0 ≤ val_main_v11 (F := Ideal) x1 ix0 := by
  haveI : Nonempty S100x2000.Idx := ⟨ix2 (⟨0, by decide⟩ : Fin 100) (⟨0, by decide⟩ : Fin 2000)⟩
  rw [val_main_v11_apply, val_main_cst_3_apply, v10_eq, Ideal.hostDivf_def, Ideal.ofBits_def, ofBits_1]
  exact div_coe_nonneg (by norm_num) (gmax_nonneg _ fun i => abs_nonneg _)
theorem w_ne_top (h1 : ∀ i, x1 i ≠ ⊤ ∧ x1 i ≠ ⊥) : val_main_v11 (F := Ideal) x1 ix0 ≠ ⊤ := by
  haveI : Nonempty S100x2000.Idx := ⟨ix2 (⟨0, by decide⟩ : Fin 100) (⟨0, by decide⟩ : Fin 2000)⟩
  rw [val_main_v11_apply, val_main_cst_3_apply, v10_eq, Ideal.hostDivf_def, Ideal.ofBits_def, ofBits_1]
  exact div_coe_ne_top (by norm_num) (gmax_nonneg _ fun i => abs_nonneg _)
    (gmax_ne_top _ fun i => abs_ne_top _ (h1 i).1 (h1 i).2)

/-- The bias scale is the product of the two. -/
theorem v16_eq : val_main_v16 (F := Ideal) x0 x1 ix0 = val_main_v11 (F := Ideal) x1 ix0 * val_main_v2 (F := Ideal) x0 ix0 := rfl

/-- The reference's quantised activation at an entry. -/
theorem v6_apply (j : S16384x2000.Idx) :
    val_main_v6 (F := Ideal) x0 j = qact (x0 j) (val_main_v2 (F := Ideal) x0 ix0) := by
  have h15 : FloatOps.sitofp (F := Ideal) .f32 (15#32 : BitVec 32) = (15 : EReal) := by
    show (((15#32 : BitVec 32).toInt : ℝ) : EReal) = 15
    rw [show (15#32 : BitVec 32).toInt = 15 by decide]
    norm_num
    rfl
  have h16 : FloatOps.sitofp (F := Ideal) .f32 (4294967280#32 : BitVec 32) = (-16 : EReal) := by
    show (((4294967280#32 : BitVec 32).toInt : ℝ) : EReal) = -16
    rw [show (4294967280#32 : BitVec 32).toInt = -16 by decide]
    norm_num
    rfl
  rw [val_main_v6_apply, val_main_call1_v4_apply, val_main_call1_v3_apply, val_main_c_1_apply, val_main_call1_v2_apply,
    val_main_call1_v1_apply, val_main_call1_v0_apply, val_main_c_apply, val_main_v5_apply, val_main_v4_apply,
    val_main_v3_apply, h15, h16]
  rfl

/-- The de-quantised-then-re-quantised activation at an entry. -/
theorem v22_apply (j : S16384x2000.Idx) :
    val_main_v22 (F := Ideal) x0 j
      = Ideal.div (qact (x0 j) (val_main_v2 (F := Ideal) x0 ix0) * val_main_v2 (F := Ideal) x0 ix0)
          (val_main_v2 (F := Ideal) x0 ix0) := by
  rw [val_main_v22_apply, val_main_v8_apply, val_main_v21_apply, val_main_v7_apply, v6_apply]
  rfl

/-- The hidden activation at row `r`, unit `c`. -/
theorem v30_apply (r : Fin 16384) (c : Fin 100) :
    val_main_v30 (F := Ideal) x0 x1 x2 (ix2 r c)
      = max (((∑ k : Fin 2000, Ideal.div (qact (x0 (ix2 r k)) (val_main_v2 (F := Ideal) x0 ix0) * val_main_v2 (F := Ideal) x0 ix0)
                  (val_main_v2 (F := Ideal) x0 ix0) * val_main_v15 (F := Ideal) x1 (ix2 c k))
              + val_main_v20 (F := Ideal) x0 x1 x2 (ix1 c))
            * (val_main_v11 (F := Ideal) x1 ix0 * val_main_v2 (F := Ideal) x0 ix0)) 0 := by
  have hl : ∀ k : Fin 2000, lidx_main_v24 (ix2 r c) k = ix2 r k := fun k =>
    funext fun a => Fin.ext (by match a with | ⟨0, _⟩ => rfl | ⟨1, _⟩ => rfl)
  have hr : ∀ k : Fin 2000, idx_main_v23 (ridx_main_v24 (ix2 r c) k) = ix2 c k := fun k =>
    funext fun a => Fin.ext (by match a with | ⟨0, _⟩ => rfl | ⟨1, _⟩ => rfl)
  have hb : idx_main_v25 (idx_main_v26 (ix2 r c)) = ix1 c :=
    funext fun a => Fin.ext (by match a with | ⟨0, _⟩ => rfl)
  have hsum : val_main_v24 (F := Ideal) x0 x1 (ix2 r c)
      = ∑ k : Fin 2000, Ideal.div (qact (x0 (ix2 r k)) (val_main_v2 (F := Ideal) x0 ix0) * val_main_v2 (F := Ideal) x0 ix0)
          (val_main_v2 (F := Ideal) x0 ix0) * val_main_v15 (F := Ideal) x1 (ix2 c k) := by
    rw [val_main_v24_apply]
    refine Finset.sum_congr rfl fun k _ => ?_
    rw [val_main_v23_apply, v22_apply, hl k, hr k]
  rw [val_main_v30_apply, val_main_v29_apply, val_main_v27_apply, hsum, val_main_v26_apply, val_main_v25_apply, hb,
    val_main_v28_apply, val_main_v16_apply, val_main_call6_v0_apply, val_main_call6_cst_apply, Ideal.ofBits_def,
    Ideal.ofBits_zero_f32]
  rfl

/-- The reference's maximum of the hidden activations' absolute values. -/
theorem v32_eq (j : S_.Idx) :
    val_main_v32 (F := Ideal) x0 x1 x2 j
      = gmax (fun i : S16384x100.Idx => max (val_main_v30 (F := Ideal) x0 x1 x2 i) (-(val_main_v30 (F := Ideal) x0 x1 x2 i))) := by
  unfold val_main_v32
  exact hostReduce_max_scalar (val_main_v31 (F := Ideal) x0 x1 x2) (val_main_cst_8 (F := Ideal)) Gen.reducesTo_S16384x100_S_d0_1 Gen.h_S_
    (fun b => b.elim0) ((val_main_cst_8_apply _).trans ofBits_neg_inf) j

end Cert.RefSide

end
-- ==== Proof.Hidden.lean ====
/-
  The second kernel body on the buffers the host hands it, against the reference's hidden activations.

  The body is handed the activation scale `s`, the bias scale `w·s`, a tile of the activations, the clipped rounded
  weights padded to 128 units and transposed, and the clipped rounded bias times `w·s`, padded. On a real unit
  `c < 100` its stored value `relu((∑ₖ qₖ·Wq[c,k])·(w·s) + bq[c]·(w·s))` is the reference's
  `relu(((∑ₖ ((qₖ·s)/s)·Wq[c,k]) + bq[c])·(w·s))`: for `s = 0` both are `0`, otherwise `(qₖ·s)/s = qₖ` and the product
  with the nonnegative finite `w·s` distributes over the sum. On a padding unit `c ≥ 100` the weights and the bias are
  zero and it stores `relu(0) = 0`.
-/
import proofs.«123791_j33036888440887_2_alg».proof.Proof.Gen.KernelIdeal.Skeleton
import proofs.«123791_j33036888440887_2_alg».proof.Proof.Gen.ReferenceIdeal.Read
import proofs.«123791_j33036888440887_2_alg».proof.Proof.KReg0
import proofs.«123791_j33036888440887_2_alg».proof.Proof.RefSide
import proofs.«123791_j33036888440887_2_alg».proof.Proof.Consts
import proofs.«123791_j33036888440887_2_alg».proof.Proof.LibGmax
import proofs.«123791_j33036888440887_2_alg».proof.Proof.KPay
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Hidden

open Idealize.ShloMosaic Idealize.ShloMosaic.ValueIdx Cert.KernelIdeal Cert.KernelIdeal.Gen Cert.KernelIdeal.KReg0 Cert.KernelIdeal.KPay Cert.Gmax

variable (x0 : (⟨Cert.ReferenceIdeal.S16384x2000, .f32⟩ : BufTy).Contents (Elt Ideal))
  (x1 : (⟨Cert.ReferenceIdeal.S100x2000, .f32⟩ : BufTy).Contents (Elt Ideal))
  (x2 : (⟨Cert.ReferenceIdeal.S100, .f32⟩ : BufTy).Contents (Elt Ideal))

/-- The activation scale as the 1×1 array the body loads. -/
abbrev sBuf : FVec Ideal S1x1 .f32 := shapeCast S1x1 (Cert.ReferenceIdeal.Read.val_main_v2 (F := Ideal) x0) shapeCasts_S_S1x1
/-- The bias scale as the 1×1 array the body loads. -/
abbrev bBuf : FVec Ideal S1x1 .f32 := shapeCast S1x1 (Cert.ReferenceIdeal.Read.val_main_v16 (F := Ideal) x0 x1) shapeCasts_S_S1x1
/-- The quantised weights, padded to 128 units with zeros and transposed. -/
abbrev wtBuf : FVec Ideal S2000x128 .bf16 :=
  transpose S2000x128 [1, 0] (truncf .bf16 (pad S128x2000 ![0, 0] ![28, 0] ![0, 0] (Cert.ReferenceIdeal.Read.val_main_v15 (F := Ideal) x1)
    (sitofp (F := Ideal) .f32 (constantI S_ 32 0#32)) pads_S100x2000_S128x2000_0280_000 h_S_) bitsLt_bf16_f32) transposes_S128x2000_S2000x128_1_0
/-- The quantised bias times its scale, padded to 128 units with zeros. -/
abbrev biasBuf : FVec Ideal S128 .f32 :=
  pad S128 ![0] ![28] ![0] (mulf (Cert.ReferenceIdeal.Read.val_main_v20 (F := Ideal) x0 x1 x2) (broadcastInDim S100 ![] bcast_S_S100 (Cert.ReferenceIdeal.Read.val_main_v16 (F := Ideal) x0 x1)))
    (sitofp (F := Ideal) .f32 (constantI S_ 32 0#32)) pads_S100_S128_0280 h_S_

/-- A shape cast of a one-element array of rank zero reads its element. -/
theorem shapeCast_scalar {t : Shape} (X : (⟨0, ![]⟩ : Shape).Idx → EReal) (h : (⟨0, ![]⟩ : Shape).ShapeCasts t) (i : t.Idx) :
    shapeCast t X h i = X ix0 :=
  congrArg X (eq_ix0 _)

/-- The padded, transposed weights at a real unit are the weights. -/
theorem wt_inside (W : FVec Ideal S100x2000 .f32) (z : FVec Ideal S_ .f32) (k : Fin 2000) (c : Fin 100) :
    transpose S2000x128 [1, 0] (truncf .bf16 (pad S128x2000 ![0, 0] ![28, 0] ![0, 0] W z pads_S100x2000_S128x2000_0280_000 h_S_)
      bitsLt_bf16_f32) transposes_S128x2000_S2000x128_1_0 (ix2 k (⟨c.val, by omega⟩ : Fin 128)) = W (ix2 c k) := by
  rw [transpose_ix2_apply, truncf_apply]
  exact pad_apply_of_inside _ _ _ W z pads_S100x2000_S128x2000_0280_000 h_S_ _ (ix2 c k) fun a => match a with
    | ⟨0, _⟩ => by show c.val = 0 + c.val * (0 + 1); omega
    | ⟨1, _⟩ => by show k.val = 0 + k.val * (0 + 1); omega

/-- The padded, transposed weights at a padding unit are the padding value. -/
theorem wt_outside (W : FVec Ideal S100x2000 .f32) (z : FVec Ideal S_ .f32) (k : Fin 2000) (c : Fin 128) (hc : 100 ≤ c.val) :
    transpose S2000x128 [1, 0] (truncf .bf16 (pad S128x2000 ![0, 0] ![28, 0] ![0, 0] W z pads_S100x2000_S128x2000_0280_000 h_S_)
      bitsLt_bf16_f32) transposes_S128x2000_S2000x128_1_0 (ix2 k c) = z (Shape.Idx.first h_S_) := by
  rw [transpose_ix2_apply, truncf_apply]
  refine pad_apply_of_not_inside _ _ _ W z pads_S100x2000_S128x2000_0280_000 h_S_ _ (0 : Fin 2) ?_
  intro h
  have h3 : (c.val - 0) / (0 + 1) < 100 := h.2.2
  omega

/-- The padded bias at a real unit is the bias. -/
theorem bias_inside (B : FVec Ideal S100 .f32) (z : FVec Ideal S_ .f32) (c : Fin 100) :
    pad S128 ![0] ![28] ![0] B z pads_S100_S128_0280 h_S_ (ix1 (⟨c.val, by omega⟩ : Fin 128)) = B (ix1 c) :=
  pad_apply_of_inside _ _ _ B z pads_S100_S128_0280 h_S_ _ (ix1 c) fun a => match a with
    | ⟨0, _⟩ => by show c.val = 0 + c.val * (0 + 1); omega

/-- The padded bias at a padding unit is the padding value. -/
theorem bias_outside (B : FVec Ideal S100 .f32) (z : FVec Ideal S_ .f32) (c : Fin 128) (hc : 100 ≤ c.val) :
    pad S128 ![0] ![28] ![0] B z pads_S100_S128_0280 h_S_ (ix1 c) = z (Shape.Idx.first h_S_) := by
  refine pad_apply_of_not_inside _ _ _ B z pads_S100_S128_0280 h_S_ _ (0 : Fin 1) ?_
  intro h
  have h3 : (c.val - 0) / (0 + 1) < 100 := h.2.2
  omega

/-- The padding value is zero. -/
theorem padval_zero : (sitofp (F := Ideal) .f32 (constantI S_ 32 0#32) : FVec Ideal S_ .f32) (Shape.Idx.first h_S_) = 0 :=
  Cert.QConsts.sitofp_0_val

/-- On a real unit the body's stored value is the reference's hidden activation. -/
theorem hidden_eq (hx0 : ∀ i, x0 i ≠ ⊤ ∧ x0 i ≠ ⊥) (hx1 : ∀ i, x1 i ≠ ⊤ ∧ x1 i ≠ ⊥) (t : Fin 16) (p : Fin 1024) (c : Fin 100) :
    k1_pay1 (F := Ideal) (sBuf x0) (bBuf x0 x1) (tile x0 t) (wtBuf x1) (biasBuf x0 x1 x2) (ix2 p (⟨c.val, by omega⟩ : Fin 128))
      = Cert.ReferenceIdeal.Read.val_main_v30 (F := Ideal) x0 x1 x2 (ix2 (⟨t.val * 1024 + p.val, by omega⟩ : Fin 16384) c) := by
  have hS : sBuf x0 (ix2 0 0) = Cert.ReferenceIdeal.Read.val_main_v2 (F := Ideal) x0 ix0 := shapeCast_scalar _ _ _
  have hB : bBuf x0 x1 (ix2 0 0) = Cert.ReferenceIdeal.Read.val_main_v16 (F := Ideal) x0 x1 ix0 := shapeCast_scalar _ _ _
  have hT : ∀ k : Fin 2000, tile x0 t (ix2 p k) = x0 (ix2 (⟨t.val * 1024 + p.val, by omega⟩ : Fin 16384) k) := fun k => rfl
  have hW : ∀ k : Fin 2000, wtBuf x1 (ix2 k (⟨c.val, by omega⟩ : Fin 128)) = Cert.ReferenceIdeal.Read.val_main_v15 (F := Ideal) x1 (ix2 c k) :=
    fun k => wt_inside _ _ k c
  have hb : biasBuf x0 x1 x2 (ix1 (⟨c.val, by omega⟩ : Fin 128))
      = Cert.ReferenceIdeal.Read.val_main_v20 (F := Ideal) x0 x1 x2 (ix1 c) * Cert.ReferenceIdeal.Read.val_main_v16 (F := Ideal) x0 x1 ix0 := by
    refine (bias_inside _ _ c).trans ?_
    rw [mulf_apply, broadcastInDim_apply _ bcast_S_S100 _ (ix1 c) ix0 fun a => a.elim0]
  rw [pay_hidden, Cert.RefSide.v30_apply, hS, hB, hb, Cert.QConsts.ofBits_15, Cert.QConsts.ofBits_neg16, Cert.QConsts.ofBits_zero,
    Cert.RefSide.v16_eq]
  simp only [hT, hW]
  exact qlinear_eq (fun k => Cert.RefSide.qact (x0 (ix2 (⟨t.val * 1024 + p.val, by omega⟩ : Fin 16384) k)) (Cert.ReferenceIdeal.Read.val_main_v2 (F := Ideal) x0 ix0))
    (fun k => Cert.ReferenceIdeal.Read.val_main_v15 (F := Ideal) x1 (ix2 c k)) _ _ _
    (Cert.RefSide.s_nonneg x0) (Cert.RefSide.s_ne_top x0 hx0) (Cert.RefSide.w_nonneg x1) (Cert.RefSide.w_ne_top x1 hx1)

/-- On a padding unit it stores zero. -/
theorem hidden_pad (t : Fin 16) (p : Fin 1024) (c : Fin 128) (hc : 100 ≤ c.val) :
    k1_pay1 (F := Ideal) (sBuf x0) (bBuf x0 x1) (tile x0 t) (wtBuf x1) (biasBuf x0 x1 x2) (ix2 p c) = 0 := by
  have hW : ∀ k : Fin 2000, wtBuf x1 (ix2 k c) = 0 := fun k => (wt_outside _ _ k c hc).trans padval_zero
  have hb : biasBuf x0 x1 x2 (ix1 c) = 0 := (bias_outside _ _ c hc).trans padval_zero
  rw [pay_hidden, hb, Cert.QConsts.ofBits_zero]
  simp only [hW, mul_zero, Finset.sum_const_zero, zero_mul, add_zero, max_self]

end Cert.KernelIdeal.Hidden

end
-- ==== Proof.Bridge.lean ====
/-
  The idealized kernel's result is the reference's function of the arguments.

  Region by region: the first region leaves the tiles' maxima of `|x|`, whose maximum is the reference's maximum of
  `|x|` (a maximum taken tile by tile and then over the tiles is the maximum of the whole); so the buffers the second
  region reads are the reference's own stages re-laid. The second region leaves, on the hundred real units, the
  reference's hidden activations and zeros on the twenty-eight padding units, and the tiles' maxima of their absolute
  values, whose maximum is the reference's (the zeros do not raise a maximum of absolute values). From there on the
  two programs apply the same operations.
-/
import proofs.«123791_j33036888440887_2_alg».proof.Proof.Gen.KernelIdeal.Frame
import proofs.«123791_j33036888440887_2_alg».proof.Proof.KReg0
import proofs.«123791_j33036888440887_2_alg».proof.Proof.KReg1
import proofs.«123791_j33036888440887_2_alg».proof.Proof.KReg1b
import proofs.«123791_j33036888440887_2_alg».proof.Proof.KPay
import proofs.«123791_j33036888440887_2_alg».proof.Proof.KHostA
import proofs.«123791_j33036888440887_2_alg».proof.Proof.KTail
import proofs.«123791_j33036888440887_2_alg».proof.Proof.Hidden
import proofs.«123791_j33036888440887_2_alg».proof.Proof.RefSide
import proofs.«123791_j33036888440887_2_alg».proof.Proof.LibGmax
import Idealize.ShloMosaic.Lib.ValueIdx
import Idealize.ShloMosaic.Lib.Pipeline.Value

set_option maxRecDepth 16384

noncomputable section

namespace Cert.KernelIdeal.Bridge

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KReg0 Cert.KernelIdeal.KReg1 Cert.KernelIdeal.KReg1b Cert.KernelIdeal.KPay
open Cert.KernelIdeal.Hidden Cert.Gmax

/-- A maximum taken block by block and then over the blocks is the maximum of the whole. -/
theorem gmax_nested {J κ ι : Type} [Fintype J] [Fintype κ] [Fintype ι] (f : ι → EReal) (e : J → κ → ι)
    (hsurj : ∀ i, ∃ j y, e j y = i) : gmax (fun j => gmax (fun y => f (e j y))) = gmax f := by
  apply le_antisymm
  · rw [gmax_le_iff]; intro j; rw [gmax_le_iff]; intro y; exact le_gmax f _
  · rw [gmax_le_iff]; intro i; obtain ⟨j, y, rfl⟩ := hsurj i
    exact (le_gmax (fun y => f (e j y)) y).trans (le_gmax (fun j => gmax (fun y => f (e j y))) j)

/-- Every entry of the activations lies in one tile. -/
theorem tile_surj (i : S16384x2000.Idx) : ∃ (j : S16x1x128.Idx) (y : S1024x2000.Idx),
    tileIdx ⟨(j 0).val, (j 0).isLt⟩ y = i := by
  have h0 : (i 0).val < 16384 := (i 0).isLt
  have h1 : (i 1).val < 2000 := (i 1).isLt
  refine ⟨ix3 (⟨(i 0).val / 1024, by omega⟩ : Fin 16) (0 : Fin 1) (0 : Fin 128),
    ix2 (⟨(i 0).val % 1024, by omega⟩ : Fin 1024) (⟨(i 1).val, h1⟩ : Fin 2000), ?_⟩
  funext a
  apply Fin.ext
  match a with
  | ⟨0, _⟩ => show (i 0).val / 1024 * 1024 + (i 0).val % 1024 = (i 0).val; omega
  | ⟨1, _⟩ => rfl

/-- Argument 0 of @main as launched, as an array of extended reals. -/
abbrev a0 (m : (ℓ : Loc nD τ sig) → Buf (Elt Ideal) ℓ) (c : Dev nD) : (⟨S16384x2000, .f32⟩ : BufTy).Contents (Elt Ideal) :=
  m ((c : Thread nD τ).loc main_arg0)
/-- Argument 1 of @main as launched, as an array of extended reals. -/
abbrev a1 (m : (ℓ : Loc nD τ sig) → Buf (Elt Ideal) ℓ) (c : Dev nD) : (⟨S100x2000, .f32⟩ : BufTy).Contents (Elt Ideal) :=
  m ((c : Thread nD τ).loc main_arg1)
/-- Argument 2 of @main as launched, as an array of extended reals. -/
abbrev a2 (m : (ℓ : Loc nD τ sig) → Buf (Elt Ideal) ℓ) (c : Dev nD) : (⟨S100, .f32⟩ : BufTy).Contents (Elt Ideal) :=
  m ((c : Thread nD τ).loc main_arg2)
/-- Argument 3 of @main as launched, as an array of extended reals. -/
abbrev a3 (m : (ℓ : Loc nD τ sig) → Buf (Elt Ideal) ℓ) (c : Dev nD) : (⟨S2x100, .f32⟩ : BufTy).Contents (Elt Ideal) :=
  m ((c : Thread nD τ).loc main_arg3)
/-- Argument 4 of @main as launched, as an array of extended reals. -/
abbrev a4 (m : (ℓ : Loc nD τ sig) → Buf (Elt Ideal) ℓ) (c : Dev nD) : (⟨S2, .f32⟩ : BufTy).Contents (Elt Ideal) :=
  m ((c : Thread nD τ).loc main_arg4)
/-- Argument 5 of @main as launched, as an array of extended reals. -/
abbrev a5 (m : (ℓ : Loc nD τ sig) → Buf (Elt Ideal) ℓ) (c : Dev nD) : (⟨S100, .f32⟩ : BufTy).Contents (Elt Ideal) :=
  m ((c : Thread nD τ).loc main_arg5)
/-- Argument 6 of @main as launched, as an array of extended reals. -/
abbrev a6 (m : (ℓ : Loc nD τ sig) → Buf (Elt Ideal) ℓ) (c : Dev nD) : (⟨S100, .f32⟩ : BufTy).Contents (Elt Ideal) :=
  m ((c : Thread nD τ).loc main_arg6)

section
variable (m : (ℓ : Loc nD τ sig) → Buf (Elt Ideal) ℓ) (ρ : Dev nD → PrngReg) (c : Dev nD)

/-! ## The buffers at the first region's exit -/

theorem W1_arg0 : W1 (F := Ideal) m ρ c (Proc.devRef .tc main_arg0) = (a0 m c) :=
  (W1_arr m ρ c 0).trans (((dat0 (V0 m ρ) c).arrAt_in 0 rfl _).trans (A_eq0 (V0 m ρ) c 0))
theorem W1_arg1 : W1 (F := Ideal) m ρ c (Proc.devRef .tc main_arg1) = (a1 m c) := W1_of_ne m ρ c main_arg1 (by decide)
theorem W1_arg2 : W1 (F := Ideal) m ρ c (Proc.devRef .tc main_arg2) = (a2 m c) := W1_of_ne m ρ c main_arg2 (by decide)
theorem W1_v0 : W1 (F := Ideal) m ρ c (Proc.devRef .tc main_v0) = G0 (a0 m c) :=
  (W1_arr m ρ c 1).trans (final0 (V0 m ρ) c)

/-- The first region's output at an entry is the maximum of `|x|` over the entry's tile. -/
theorem G0_eq (a : S16384x2000.Idx → EReal) (j' : S16x1x128.Idx) :
    G0 a j' = gmax (fun y : S1024x2000.Idx => max (a (tileIdx ⟨(j' 0).val, (j' 0).isLt⟩ y)) (-(a (tileIdx ⟨(j' 0).val, (j' 0).isLt⟩ y)))) := by
  unfold G0
  exact pay_max_abs (tile a ⟨(j' 0).val, (j' 0).isLt⟩) _

/-- The maximum of all the tile maxima is the maximum of `|x|`. -/
theorem gmax_G0 (a : S16384x2000.Idx → EReal) : gmax (G0 a) = gmax (fun i => max (a i) (-(a i))) := by
  rw [show G0 a = (fun j' : S16x1x128.Idx => gmax (fun y : S1024x2000.Idx =>
      (fun i => max (a i) (-(a i))) (tileIdx ⟨(j' 0).val, (j' 0).isLt⟩ y))) from funext (G0_eq a)]
  exact gmax_nested (fun i => max (a i) (-(a i))) (fun (j' : S16x1x128.Idx) (y : S1024x2000.Idx) => tileIdx ⟨(j' 0).val, (j' 0).isLt⟩ y) tile_surj

/-- The maximum of the first region's tile maxima is the reference's maximum of `|x|`. -/
theorem max_bridge :
    (Host.reduce (FloatOps.maximumf (F := Ideal) (φ := .f32)) (W1 (F := Ideal) m ρ c (Proc.devRef .tc main_v0))
        (constant (F := Ideal) S_ .f32 0xFF800000#32) reducesTo_S16x1x128_S_d0_1_2 h_S_ : (⟨S_, .f32⟩ : BufTy).Contents (Elt Ideal))
      = Cert.ReferenceIdeal.Read.val_main_v1 (F := Ideal) (a0 m c) := by
  rw [W1_v0]
  generalize hg : G0 (a0 m c) = g
  funext j
  refine (hostReduce_max_scalar g _ reducesTo_S16x1x128_S_d0_1_2 h_S_ (fun b => b.elim0) ofBits_neg_inf j).trans ?_
  rw [Cert.RefSide.v1_eq, ← hg]
  exact gmax_G0 (a0 m c)

/-! ## The buffers at the second region's entry and exit -/

theorem V14_v20 : V14 (F := Ideal) m ρ c main_v20 = sBuf (a0 m c) :=
  KHostA.scale_buf (W1 m ρ c) (a0 m c) (a1 m c) (a2 m c) (max_bridge m ρ c) (W1_arg0 m ρ c) (W1_arg1 m ρ c) (W1_arg2 m ρ c)
theorem V14_v21 : V14 (F := Ideal) m ρ c main_v21 = bBuf (a0 m c) (a1 m c) :=
  KHostA.bscale_buf (W1 m ρ c) (a0 m c) (a1 m c) (a2 m c) (max_bridge m ρ c) (W1_arg0 m ρ c) (W1_arg1 m ρ c) (W1_arg2 m ρ c)
theorem V14_v11 : V14 (F := Ideal) m ρ c main_v11 = wtBuf (a1 m c) :=
  KHostA.weights_buf (W1 m ρ c) (a0 m c) (a1 m c) (a2 m c) (max_bridge m ρ c) (W1_arg0 m ρ c) (W1_arg1 m ρ c) (W1_arg2 m ρ c)
theorem V14_v19 : V14 (F := Ideal) m ρ c main_v19 = biasBuf (a0 m c) (a1 m c) (a2 m c) :=
  KHostA.bias_buf (W1 m ρ c) (a0 m c) (a1 m c) (a2 m c) (max_bridge m ρ c) (W1_arg0 m ρ c) (W1_arg1 m ρ c) (W1_arg2 m ρ c)
theorem V14_arg0 : V14 (F := Ideal) m ρ c main_arg0 = (a0 m c) :=
  KHostA.acts_buf (W1 m ρ c) (a0 m c) (W1_arg0 m ρ c)

theorem W15_v22_0 : W15 (F := Ideal) m ρ c (Proc.devRef .tc main_v22_0) = G5 (sBuf (a0 m c)) (bBuf (a0 m c) (a1 m c)) (a0 m c) (wtBuf (a1 m c)) (biasBuf (a0 m c) (a1 m c) (a2 m c)) := by
  refine (W15_arr m ρ c 5).trans ((final5 (V14 m ρ) c).trans ?_)
  rw [V14_v20, V14_v21, V14_v11, V14_v19, V14_arg0]
theorem W15_v22_1 : W15 (F := Ideal) m ρ c (Proc.devRef .tc main_v22_1) = G6 (sBuf (a0 m c)) (bBuf (a0 m c) (a1 m c)) (a0 m c) (wtBuf (a1 m c)) (biasBuf (a0 m c) (a1 m c) (a2 m c)) := by
  refine (W15_arr m ρ c 6).trans ((final6 (V14 m ρ) c).trans ?_)
  rw [V14_v20, V14_v21, V14_v11, V14_v19, V14_arg0]

theorem W15_arg (b : Ref sig .tc) (hb1 : ∀ w, Pipeline.arrRef spec1 w ≠ b) (hb0 : ∀ w, Pipeline.arrRef spec0 w ≠ b)
    (hk : KHostA.V14of (W1 (F := Ideal) m ρ c) (Proc.devRef .tc b) = W1 (F := Ideal) m ρ c (Proc.devRef .tc b)) :
    W15 (F := Ideal) m ρ c (Proc.devRef .tc b) = m ((c : Thread nD τ).loc b) :=
  (W15_of_ne m ρ c b hb1).trans (hk.trans (W1_of_ne m ρ c b hb0))

variable (hx0 : ∀ i, (a0 m c) i ≠ ⊤ ∧ (a0 m c) i ≠ ⊥) (hx1 : ∀ i, (a1 m c) i ≠ ⊤ ∧ (a1 m c) i ≠ ⊥)
include hx0 hx1

/-- The sliced hidden activations are the reference's. -/
theorem hidden_bridge :
    extractStridedSlice S16384x100 ![0, 0] (W15 (F := Ideal) m ρ c (Proc.devRef .tc main_v22_0)) slices_S16384x128_S16384x100_0_0
      = Cert.ReferenceIdeal.Read.val_main_v30 (F := Ideal) (a0 m c) (a1 m c) (a2 m c) := by
  funext i
  obtain ⟨r, cc, rfl⟩ : ∃ (r : Fin 16384) (cc : Fin 100), i = ix2 r cc := ⟨i 0, i 1, eq_ix2 i⟩
  have hr : r.val < 16384 := r.isLt
  have hc : cc.val < 100 := cc.isLt
  rw [W15_v22_0]
  refine (extractStridedSlice_apply ![0, 0] _ slices_S16384x128_S16384x100_0_0 (ix2 r cc)
    (ix2 r (⟨cc.val, by omega⟩ : Fin 128)) (fun a => by
      match a with
      | ⟨0, _⟩ => show r.val = 0 + r.val; omega
      | ⟨1, _⟩ => show cc.val = 0 + cc.val; omega)).trans ?_
  show k1_pay1 (F := Ideal) (sBuf (a0 m c)) (bBuf (a0 m c) (a1 m c)) (tile (a0 m c) ⟨r.val / 1024, _⟩) (wtBuf (a1 m c)) (biasBuf (a0 m c) (a1 m c) (a2 m c))
      (ix2 (⟨r.val % 1024, _⟩ : Fin 1024) (⟨cc.val, _⟩ : Fin 128)) = _
  refine (hidden_eq (a0 m c) (a1 m c) (a2 m c) hx0 hx1 ⟨r.val / 1024, by omega⟩ ⟨r.val % 1024, by omega⟩ cc).trans ?_
  refine congrArg (Cert.ReferenceIdeal.Read.val_main_v30 (F := Ideal) (a0 m c) (a1 m c) (a2 m c)) (funext fun a => Fin.ext ?_)
  match a with
  | ⟨0, _⟩ => show r.val / 1024 * 1024 + r.val % 1024 = r.val; omega
  | ⟨1, _⟩ => rfl

/-- The maximum of the second region's tile maxima is the reference's maximum of the hidden activations' absolute values. -/
theorem max2_bridge :
    (Host.reduce (FloatOps.maximumf (F := Ideal) (φ := .f32)) (W15 (F := Ideal) m ρ c (Proc.devRef .tc main_v22_1))
        (constant (F := Ideal) S_ .f32 0xFF800000#32) reducesTo_S16x1x128_S_d0_1_2 h_S_ : (⟨S_, .f32⟩ : BufTy).Contents (Elt Ideal))
      = Cert.ReferenceIdeal.Read.val_main_v32 (F := Ideal) (a0 m c) (a1 m c) (a2 m c) := by
  funext j
  refine (hostReduce_max_scalar _ _ reducesTo_S16x1x128_S_d0_1_2 h_S_ (fun b => b.elim0) ofBits_neg_inf j).trans ?_
  rw [Cert.RefSide.v32_eq, W15_v22_1]
  have hG : ∀ j' : S16x1x128.Idx, G6 (sBuf (a0 m c)) (bBuf (a0 m c) (a1 m c)) (a0 m c) (wtBuf (a1 m c)) (biasBuf (a0 m c) (a1 m c) (a2 m c)) j'
      = gmax (fun y : S1024x128.Idx =>
          max (k1_pay1 (F := Ideal) (sBuf (a0 m c)) (bBuf (a0 m c) (a1 m c)) (tile (a0 m c) ⟨(j' 0).val, (j' 0).isLt⟩) (wtBuf (a1 m c)) (biasBuf (a0 m c) (a1 m c) (a2 m c)) y)
            (-(k1_pay1 (F := Ideal) (sBuf (a0 m c)) (bBuf (a0 m c) (a1 m c)) (tile (a0 m c) ⟨(j' 0).val, (j' 0).isLt⟩) (wtBuf (a1 m c)) (biasBuf (a0 m c) (a1 m c) (a2 m c)) y))) :=
    fun j' => pay_max_hidden _ _ _ _ _ _
  apply le_antisymm
  · rw [gmax_le_iff]; intro j'
    rw [hG j', gmax_le_iff]; intro y
    obtain ⟨p, q, rfl⟩ : ∃ (p : Fin 1024) (q : Fin 128), y = ix2 p q := ⟨y 0, y 1, eq_ix2 y⟩
    have hp : p.val < 1024 := p.isLt
    have ht : (j' 0).val < 16 := (j' 0).isLt
    by_cases hq : q.val < 100
    · have e := hidden_eq (a0 m c) (a1 m c) (a2 m c) hx0 hx1 ⟨(j' 0).val, ht⟩ p ⟨q.val, hq⟩
      rw [show (ix2 p q : S1024x128.Idx) = ix2 p (⟨(⟨q.val, hq⟩ : Fin 100).val, by omega⟩ : Fin 128) from rfl, e]
      exact le_gmax (fun i : S16384x100.Idx => max (Cert.ReferenceIdeal.Read.val_main_v30 (F := Ideal) (a0 m c) (a1 m c) (a2 m c) i) (-(Cert.ReferenceIdeal.Read.val_main_v30 (F := Ideal) (a0 m c) (a1 m c) (a2 m c) i))) _
    · rw [hidden_pad (a0 m c) (a1 m c) (a2 m c) ⟨(j' 0).val, ht⟩ p q (by omega)]
      refine le_trans ?_ (le_gmax (fun i : S16384x100.Idx => max (Cert.ReferenceIdeal.Read.val_main_v30 (F := Ideal) (a0 m c) (a1 m c) (a2 m c) i) (-(Cert.ReferenceIdeal.Read.val_main_v30 (F := Ideal) (a0 m c) (a1 m c) (a2 m c) i))) (ix2 (0 : Fin 16384) (0 : Fin 100)))
      rw [neg_zero, max_self]
      exact Cert.Gmax.abs_nonneg _
  · rw [gmax_le_iff]; intro i
    obtain ⟨r, cc, rfl⟩ : ∃ (r : Fin 16384) (cc : Fin 100), i = ix2 r cc := ⟨i 0, i 1, eq_ix2 i⟩
    have hr : r.val < 16384 := r.isLt
    have hc : cc.val < 100 := cc.isLt
    have e := hidden_eq (a0 m c) (a1 m c) (a2 m c) hx0 hx1 ⟨r.val / 1024, by omega⟩ ⟨r.val % 1024, by omega⟩ cc
    have er : (ix2 (⟨(⟨r.val / 1024, by omega⟩ : Fin 16).val * 1024 + (⟨r.val % 1024, by omega⟩ : Fin 1024).val, by show r.val / 1024 * 1024 + r.val % 1024 < 16384; omega⟩ : Fin 16384) cc : S16384x100.Idx) = ix2 r cc :=
      funext fun a => Fin.ext (by
        match a with
        | ⟨0, _⟩ => show r.val / 1024 * 1024 + r.val % 1024 = r.val; omega
        | ⟨1, _⟩ => rfl)
    rw [er] at e
    show max (Cert.ReferenceIdeal.Read.val_main_v30 (F := Ideal) (a0 m c) (a1 m c) (a2 m c) (ix2 r cc)) (-(Cert.ReferenceIdeal.Read.val_main_v30 (F := Ideal) (a0 m c) (a1 m c) (a2 m c) (ix2 r cc))) ≤ _
    rw [← e]
    refine le_trans ?_ (le_gmax _ (ix3 (⟨r.val / 1024, by omega⟩ : Fin 16) (0 : Fin 1) (0 : Fin 128)))
    rw [hG]
    exact le_gmax (fun y : S1024x128.Idx =>
          max (k1_pay1 (F := Ideal) (sBuf (a0 m c)) (bBuf (a0 m c) (a1 m c)) (tile (a0 m c) ⟨r.val / 1024, _⟩) (wtBuf (a1 m c)) (biasBuf (a0 m c) (a1 m c) (a2 m c)) y)
            (-(k1_pay1 (F := Ideal) (sBuf (a0 m c)) (bBuf (a0 m c) (a1 m c)) (tile (a0 m c) ⟨r.val / 1024, _⟩) (wtBuf (a1 m c)) (biasBuf (a0 m c) (a1 m c) (a2 m c)) y)))
      (ix2 (⟨r.val % 1024, by omega⟩ : Fin 1024) (⟨cc.val, by omega⟩ : Fin 128))

/-- THE VALUE: the idealized kernel's result buffer ends at the reference's function of the arguments. -/
theorem kernel_value :
    W34 (F := Ideal) m ρ c (Proc.devRef .tc main_v86) = Cert.ReferenceIdeal.Read.val_main_v95 (F := Ideal) (a0 m c) (a1 m c) (a2 m c) (a3 m c) (a4 m c) (a5 m c) (a6 m c) :=
  KTail.tail_eq (W15 m ρ c) (a0 m c) (a1 m c) (a2 m c) (a3 m c) (a4 m c) (a5 m c) (a6 m c) (hidden_bridge m ρ c hx0 hx1) (max2_bridge m ρ c hx0 hx1)
    (W15_arg m ρ c main_arg3 (by decide) (by decide) (KHostA.keep_arg3 _))
    (W15_arg m ρ c main_arg4 (by decide) (by decide) (KHostA.keep_arg4 _))
    (W15_arg m ρ c main_arg5 (by decide) (by decide) (KHostA.keep_arg5 _))
    (W15_arg m ρ c main_arg6 (by decide) (by decide) (KHostA.keep_arg6 _))

end

end Cert.KernelIdeal.Bridge

end
-- ==== Proof.Finite.lean ====
/-
  What the precondition gives: every entry of the first two argument arrays is a real number.

  The precondition is the conjunction, over the seven argument arrays, of "every entry's absolute value is below
  +∞"; read at the extended reals, an entry `x` with `max x (-x) < ⊤` is neither `⊤` nor `⊥`. Only the activations
  (argument 0) and the first layer's weights (argument 1) are needed by the value proof.
-/
import proofs.«123791_j33036888440887_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The word `0x7F800000` denotes `+∞`. -/
theorem inf_eq_top : Ideal.ofBits .f32 0x7F800000#32 = (⊤ : EReal) := by simp [Ideal.ofBits, Ideal.ieee]

/-- An extended real whose absolute value `max x (-x)` compares below `+∞` is neither infinity. -/
theorem real_of_abs_lt (x : EReal)
    (hx : Ideal.cmp .olt (max x (-x)) (Ideal.ofBits .f32 0x7F800000#32) = 1#1) : x ≠ ⊤ ∧ x ≠ ⊥ := by
  rw [inf_eq_top] at hx
  unfold Ideal.cmp at hx
  induction x using EReal.rec with
  | bot => simp at hx
  | top => simp at hx
  | coe r => exact ⟨EReal.coe_ne_top r, EReal.coe_ne_bot r⟩

/-- Under the precondition every activation and every first-layer weight is a real number. -/
theorem real_of_pre [Cert.Pre_finite_inputs.Facts]
    (a0 : FVec Ideal S16384x2000 .f32) (a1 : FVec Ideal S100x2000 .f32) (a2 : FVec Ideal S100 .f32)
    (a3 : FVec Ideal S2x100 .f32) (a4 : FVec Ideal S2 .f32) (a5 a6 : FVec Ideal S100 .f32)
    (h : Cert.Pre_finite_inputs.fn (F := Ideal) a0 a1 a2 a3 a4 a5 a6 = fun _ => 1#1) :
    (∀ i, a0 i ≠ ⊤ ∧ a0 i ≠ ⊥) ∧ (∀ i, a1 i ≠ ⊤ ∧ a1 i ≠ ⊥) := by
  have e := congrFun h ValueIdx.ix0
  dsimp only [Cert.Pre_finite_inputs.fn, Cert.Pre_finite_inputs.fn_part1] at e
  -- the outermost `and`s join the later arrays' conjuncts: drop them, keeping the two innermost
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e0, e1⟩ := IntOp.andi_eq_one.1 e
  exact ⟨fun i => real_of_abs_lt _ (Host.reduce_andi_all _ _ _ _ _ e0 i),
    fun i => real_of_abs_lt _ (Host.reduce_andi_all _ _ _ _ _ e1 i)⟩

end Cert.Finite

end
-- ==== Proof.lean ====
/-
  The certificate: a two-kernel, HAWQ-style quantised MLP against its jnp reference, at the extended reals.

  The kernel's program computes `max|x|` tile by tile in a first kernel region, quantises the first layer's weights and
  bias on the host, and in a second region computes the hidden activations `relu((∑ₖ qₖ·Wq[c,k])·(w·s) + bq[c]·(w·s))`
  over the integer activations `qₖ = clip(round(x/s), -16, 15)` together with their tile maxima; the rest (8-bit
  quantisation, batch normalisation, the second quantised layer, the last quantisation) is host arithmetic shared
  with the reference. The reference instead de-quantises and re-quantises the activations, `(qₖ·s)/s`, and factors
  the scale out of the sum, `((∑ₖ …) + bq[c])·(w·s)`. On the extended reals the two agree when the inputs are real
  numbers: for `s = 0` both hidden activations are `0`; otherwise `(q·s)/s = q` and the nonnegative finite `w·s`
  distributes over the sum. A maximum taken tile by tile is the whole maximum, and the zeros in the padded units do
  not change a maximum of absolute values.

  The three frames are the generated ones (the reference's is its generated run with the result dropped); the
  idealization rewrote nothing, so `preserves` is trivial.
-/
import proofs.«123791_j33036888440887_2_alg».proof.Defs
import proofs.«123791_j33036888440887_2_alg».proof.Proof.Gen.Kernel
import proofs.«123791_j33036888440887_2_alg».proof.Proof.Gen.Kernel.Skeleton
import proofs.«123791_j33036888440887_2_alg».proof.Proof.Gen.Kernel.Launch
import proofs.«123791_j33036888440887_2_alg».proof.Proof.Gen.Kernel.Points
import proofs.«123791_j33036888440887_2_alg».proof.Proof.Gen.Kernel.Frame
import proofs.«123791_j33036888440887_2_alg».proof.Proof.Gen.KernelIdeal
import proofs.«123791_j33036888440887_2_alg».proof.Proof.Gen.KernelIdeal.Skeleton
import proofs.«123791_j33036888440887_2_alg».proof.Proof.Gen.KernelIdeal.Launch
import proofs.«123791_j33036888440887_2_alg».proof.Proof.Gen.KernelIdeal.Points
import proofs.«123791_j33036888440887_2_alg».proof.Proof.Gen.KernelIdeal.Frame
import proofs.«123791_j33036888440887_2_alg».proof.Proof.Gen.ReferenceIdeal
import proofs.«123791_j33036888440887_2_alg».proof.Proof.Gen.Pre_finite_inputs
import proofs.«123791_j33036888440887_2_alg».proof.Proof.Gen.ReferenceIdeal.Run
import proofs.«123791_j33036888440887_2_alg».proof.Proof.Gen.ReferenceIdeal.Read
import proofs.«123791_j33036888440887_2_alg».proof.Proof.KRun
import proofs.«123791_j33036888440887_2_alg».proof.Proof.Bridge
import proofs.«123791_j33036888440887_2_alg».proof.Proof.Finite
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- At the extended reals both programs end, from memories agreeing on the arguments, with the reference's function
    of the arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.ReferenceIdeal.Read.val_main_v95 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KRun.run_result (F := Ideal) m ρ)
    obtain ⟨h0, h1⟩ := Cert.Finite.real_of_pre _ _ _ _ _ _ _ (hpre c)
    exact Cert.KernelIdeal.Bridge.kernel_value m ρ c h0 h1
  · refine (θ_run Cert.ReferenceIdeal.defs _ _).mono (fun _ h c => ⟨?_, (h c).2⟩)
      (Cert.ReferenceIdeal.Value.run (F := Ideal) m' ρ')
    rw [(h c).1, Cert.ReferenceIdeal.Read.val_main_v95_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
